-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x640000 : Shape := ⟨2, ![2, 640000]⟩
abbrev S1 : Shape := ⟨1, ![1]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1 : S_.BroadcastsInDim S1 (![] : Fin 0 → Fin S1.rank)
  reducesTo_S1_S_d0 : S1.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg8 : FVec F S128 .f32) (main_arg9 : FVec F S128 .f32) (main_arg10 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg5 : FVec F S128 .f32) (main_arg6 : FVec F S128 .f32) (main_arg7 : FVec F S128x128 .f32) (main_arg8 : FVec F S128 .f32) (main_arg9 : FVec F S128 .f32) (main_arg10 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_v33

def fn {F : FTy → Type} [FloatOps F] (main_arg0 : FVec F S100000x128 .f32) (main_arg1 : IVec S2x640000 32) (main_arg2 : FVec F S1 .f32) (main_arg3 : FVec F S128x128 .f32) (main_arg4 : FVec F S128 .f32) (main_arg5 : FVec F S128 .f32) (main_arg6 : FVec F S128 .f32) (main_arg7 : FVec F S128x128 .f32) (main_arg8 : FVec F S128 .f32) (main_arg9 : FVec F S128 .f32) (main_arg10 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1 .f32 := Host.absf main_arg2
  let main_cst_0 : FVec F S_ .f32 := constant S_ .f32 0x7F800000#32
  let main_v5 : FVec F S1 .f32 := broadcastInDim S1 ![] bcast_S_S1 main_cst_0
  let main_v6 : IVec S1 1 := cmpf .olt main_v4 main_v5
  let main_c_1 : IVec S_ 1 := constantI S_ 1 1#1
  let main_v7 : IVec S_ 1 := (fun x v => Host.reduce IntOp.andi x v reducesTo_S1_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_v13 main_v16
-- ==== Kernel.lean ====
abbrev S100000x128 : Shape := ⟨2, ![100000, 128]⟩
abbrev S2x640000 : Shape := ⟨2, ![2, 640000]⟩
abbrev S1 : Shape := ⟨1, ![1]⟩
abbrev S128x128 : Shape := ⟨2, ![128, 128]⟩
abbrev S128 : Shape := ⟨1, ![128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S1x128 : Shape := ⟨2, ![1, 128]⟩
abbrev S5000x128 : Shape := ⟨2, ![5000, 128]⟩

abbrev nBuf : Space → Nat
  | .hbm => 85
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x640000, .i32⟩
  | .hbm, ⟨2, _⟩ => ⟨S1, .f32⟩
  | .hbm, ⟨3, _⟩ => ⟨S128x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S1x640000, .i32⟩
  | .hbm, ⟨12, _⟩ => ⟨S640000, .i32⟩
  | .hbm, ⟨13, _⟩ => ⟨S1x640000, .i32⟩
  | .hbm, ⟨14, _⟩ => ⟨S640000, .i32⟩
  | .hbm, ⟨15, _⟩ => ⟨S_, .i32⟩
  | .hbm, ⟨16, _⟩ => ⟨S640000, .i32⟩
  | .hbm, ⟨17, _⟩ => ⟨S640000, .i1⟩
  | .hbm, ⟨18, _⟩ => ⟨S_, .i32⟩
  | .hbm, ⟨19, _⟩ => ⟨S640000, .i32⟩
  | .hbm, ⟨20, _⟩ => ⟨S640000, .i32⟩
  | .hbm, ⟨21, _⟩ => ⟨S640000, .i32⟩
  | .hbm, ⟨22, _⟩ => ⟨S640000x1, .i32⟩
  | .hbm, ⟨23, _⟩ => ⟨S640000x128, .f32⟩
  | .hbm, ⟨24, _⟩ => ⟨S_, .f32⟩
  | .hbm, ⟨25, _⟩ => ⟨S100000x128, .f32⟩
  | .hbm, ⟨26, _⟩ => ⟨S640000x1, .i32⟩
  | .hbm, ⟨27, _⟩ => ⟨S100000x128, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S100000x128, .f32⟩
  | .hbm, ⟨32, _⟩ => ⟨S100000x128, .f32⟩
  | .hbm, ⟨33, _⟩ => ⟨S100000x128, .f32⟩
  | .hbm, ⟨34, _⟩ => ⟨S1x128, .f32⟩
  | .hbm, ⟨35, _⟩ => ⟨S100000x128, .f32⟩
  | .hbm, ⟨36, _⟩ => ⟨S_, .f32⟩
  | .hbm, ⟨37, _⟩ => ⟨S128, .f32⟩
  | .hbm, ⟨38, _⟩ => ⟨S_, .f32⟩
  | .hbm, ⟨39, _⟩ => ⟨S128, .f32⟩
  | .hbm, ⟨40, _⟩ => ⟨S128, .f32⟩
  | .hbm, ⟨41, _⟩ => ⟨S1x128, .f32⟩
  | .hbm, ⟨42, _⟩ => ⟨S100000x128, .f32⟩
  | .hbm, ⟨43, _⟩ => ⟨S100000x128, .f32⟩
  | .hbm, ⟨44, _⟩ => ⟨S100000x128, .f32⟩
  | .hbm, ⟨45, _⟩ => ⟨S_, .f32⟩
  | .hbm, ⟨46, _⟩ => ⟨S128, .f32⟩
  | .hbm, ⟨47, _⟩ => ⟨S_, .f32⟩
  | .hbm, ⟨48, _⟩ => ⟨S128, .f32⟩
  | .hbm, ⟨49, _⟩ => ⟨S128, .f32⟩
  | .hbm, ⟨50, _⟩ => ⟨S_, .f32⟩
  | .hbm, ⟨51, _⟩ => ⟨S128, .f32⟩
  | .hbm, ⟨52, _⟩ => ⟨S128, .f32⟩
  | .hbm, ⟨53, _⟩ => ⟨S128, .f32⟩
  | .hbm, ⟨54, _⟩ => ⟨S128, .f32⟩
  | .hbm, ⟨55, _⟩ => ⟨S128, .f32⟩
  | .hbm, ⟨56, _⟩ => ⟨S128, .f32⟩
  | .hbm, ⟨57, _⟩ => ⟨S1x128, .f32⟩
  | .hbm, ⟨58, _⟩ => ⟨S1x128, .f32⟩
  | .hbm, ⟨59, _⟩ => ⟨S1x128, .f32⟩
  | .hbm, ⟨60, _⟩ => ⟨S100000x128, .f32⟩
  | .hbm, ⟨61, _⟩ => ⟨S_, .f32⟩
  | .hbm, ⟨62, _⟩ => ⟨S128, .f32⟩
  | .hbm, ⟨63, _⟩ => ⟨S_, .f32⟩
  | .hbm, ⟨64, _⟩ => ⟨S128, .f32⟩
  | .hbm, ⟨65, _⟩ => ⟨S128, .f32⟩
  | .hbm, ⟨66, _⟩ => ⟨S1x128, .f32⟩
  | .hbm, ⟨67, _⟩ => ⟨S100000x128, .f32⟩
  | .hbm, ⟨68, _⟩ => ⟨S100000x128, .f32⟩
  | .hbm, ⟨69, _⟩ => ⟨S100000x128, .f32⟩
  | .hbm, ⟨70, _⟩ => ⟨S_, .f32⟩
  | .hbm, ⟨71, _⟩ => ⟨S128, .f32⟩
  | .hbm, ⟨72, _⟩ => ⟨S_, .f32⟩
  | .hbm, ⟨73, _⟩ => ⟨S128, .f32⟩
  | .hbm, ⟨74, _⟩ => ⟨S128, .f32⟩
  | .hbm, ⟨75, _⟩ => ⟨S_, .f32⟩
  | .hbm, ⟨76, _⟩ => ⟨S128, .f32⟩
  | .hbm, ⟨77, _⟩ => ⟨S128, .f32⟩
  | .hbm, ⟨78, _⟩ => ⟨S128, .f32⟩
  | .hbm, ⟨79, _⟩ => ⟨S128, .f32⟩
  | .hbm, ⟨80, _⟩ => ⟨S128, .f32⟩
  | .hbm, ⟨81, _⟩ => ⟨S128, .f32⟩
  | .hbm, ⟨82, _⟩ => ⟨S1x128, .f32⟩
  | .hbm, ⟨83, _⟩ => ⟨S1x128, .f32⟩
  | .hbm, ⟨84, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S1x128, .f32⟩
  | .local _ .vmem, ⟨9, _⟩ => ⟨S1x128, .f32⟩
  | .local _ .vmem, ⟨10, _⟩ => ⟨S128x128, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S1x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_1 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_2 : Ref sig .tc := ⟨.hbm, 36, rfl⟩
abbrev main_v21 : Ref sig .tc := ⟨.hbm, 37, rfl⟩
abbrev main_cst_3 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_4 : Ref sig .tc := ⟨.hbm, 45, rfl⟩
abbrev main_v28 : Ref sig .tc := ⟨.hbm, 46, rfl⟩
abbrev main_cst_5 : Ref sig .tc := ⟨.hbm, 47, rfl⟩
abbrev main_v29 : Ref sig .tc := ⟨.hbm, 48, rfl⟩
abbrev main_v30 : Ref sig .tc := ⟨.hbm, 49, rfl⟩
abbrev main_cst_6 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_7 : Ref sig .tc := ⟨.hbm, 61, rfl⟩
abbrev main_v41 : Ref sig .tc := ⟨.hbm, 62, rfl⟩
abbrev main_cst_8 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_9 : Ref sig .tc := ⟨.hbm, 70, rfl⟩
abbrev main_v48 : Ref sig .tc := ⟨.hbm, 71, rfl⟩
abbrev main_cst_10 : Ref sig .tc := ⟨.hbm, 72, rfl⟩
abbrev main_v49 : Ref sig .tc := ⟨.hbm, 73, rfl⟩
abbrev main_v50 : Ref sig .tc := ⟨.hbm, 74, rfl⟩
abbrev main_cst_11 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg5_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg3_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem5_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem3_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S100000x128 : S_.BroadcastsInDim S100000x128 (![] : Fin 0 → Fin S100000x128.rank)
  shapeCasts_S1_S_ : S1.ShapeCasts S_
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reducesTo_S100000x128_S128_d0 : S100000x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S100000x128.size a
  hwx2_3 : ∀ i : grid2.Coords, EltTy.bits .f32 = 32 ∨ (Rect.block (s := S100000x128) S5000x128.size (cc2_transform_3 i) (hinb2_3 i)).WholeWords (EltTy.packing .f32)

variable [Facts₀]

def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v18) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v19) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v20) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v20) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v37) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v38) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v39) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v40) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v40) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v57) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v58) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v59) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x640000 : Shape := ⟨2, ![2, 640000]⟩
abbrev S1 : Shape := ⟨1, ![1]⟩
abbrev S128x128 : Shape := ⟨2, ![128, 128]⟩
abbrev S128 : Shape := ⟨1, ![128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S1x1 : Shape := ⟨2, ![1, 1]⟩
abbrev S1x128 : Shape := ⟨2, ![1, 128]⟩

abbrev nBuf : Space → Nat
  | .hbm => 109
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x640000, .i32⟩
  | .hbm, ⟨2, _⟩ => ⟨S1, .f32⟩
  | .hbm, ⟨3, _⟩ => ⟨S128x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S1x640000, .i32⟩
  | .hbm, ⟨12, _⟩ => ⟨S640000, .i32⟩
  | .hbm, ⟨13, _⟩ => ⟨S1x640000, .i32⟩
  | .hbm, ⟨14, _⟩ => ⟨S640000, .i32⟩
  | .hbm, ⟨15, _⟩ => ⟨S_, .i32⟩
  | .hbm, ⟨16, _⟩ => ⟨S640000, .i32⟩
  | .hbm, ⟨17, _⟩ => ⟨S640000, .i1⟩
  | .hbm, ⟨18, _⟩ => ⟨S_, .i32⟩
  | .hbm, ⟨19, _⟩ => ⟨S640000, .i32⟩
  | .hbm, ⟨20, _⟩ => ⟨S640000, .i32⟩
  | .hbm, ⟨21, _⟩ => ⟨S640000, .i32⟩
  | .hbm, ⟨22, _⟩ => ⟨S640000x1, .i32⟩
  | .hbm, ⟨23, _⟩ => ⟨S640000x128, .f32⟩
  | .hbm, ⟨24, _⟩ => ⟨S_, .f32⟩
  | .hbm, ⟨25, _⟩ => ⟨S100000x128, .f32⟩
  | .hbm, ⟨26, _⟩ => ⟨S640000x1, .i32⟩
  | .hbm, ⟨27, _⟩ => ⟨S100000x128, .f32⟩
  | .hbm, ⟨28, _⟩ => ⟨S_, .f32⟩
  | .hbm, ⟨29, _⟩ => ⟨S1, .f32⟩
  | .hbm, ⟨30, _⟩ => ⟨S1, .f32⟩
  | .hbm, ⟨31, _⟩ => ⟨S1x1, .f32⟩
  | .hbm, ⟨32, _⟩ => ⟨S100000x128, .f32⟩
  | .hbm, ⟨33, _⟩ => ⟨S100000x128, .f32⟩
  | .hbm, ⟨34, _⟩ => ⟨S100000x128, .f32⟩
  | .hbm, ⟨35, _⟩ => ⟨S100000x128, .f32⟩
  | .hbm, ⟨36, _⟩ => ⟨S1x128, .f32⟩
  | .hbm, ⟨37, _⟩ => ⟨S100000x128, .f32⟩
  | .hbm, ⟨38, _⟩ => ⟨S100000x128, .f32⟩
  | .hbm, ⟨39, _⟩ => ⟨S_, .f32⟩
  | .hbm, ⟨40, _⟩ => ⟨S128, .f32⟩
  | .hbm, ⟨41, _⟩ => ⟨S_, .f32⟩
  | .hbm, ⟨42, _⟩ => ⟨S128, .f32⟩
  | .hbm, ⟨43, _⟩ => ⟨S128, .f32⟩
  | .hbm, ⟨44, _⟩ => ⟨S1x128, .f32⟩
  | .hbm, ⟨45, _⟩ => ⟨S100000x128, .f32⟩
  | .hbm, ⟨46, _⟩ => ⟨S100000x128, .f32⟩
  | .hbm, ⟨47, _⟩ => ⟨S100000x128, .f32⟩
  | .hbm, ⟨48, _⟩ => ⟨S_, .f32⟩
  | .hbm, ⟨49, _⟩ => ⟨S128, .f32⟩
  | .hbm, ⟨50, _⟩ => ⟨S_, .f32⟩
  | .hbm, ⟨51, _⟩ => ⟨S128, .f32⟩
  | .hbm, ⟨52, _⟩ => ⟨S128, .f32⟩
  | .hbm, ⟨53, _⟩ => ⟨S1x128, .f32⟩
  | .hbm, ⟨54, _⟩ => ⟨S100000x128, .f32⟩
  | .hbm, ⟨55, _⟩ => ⟨S100000x128, .f32⟩
  | .hbm, ⟨56, _⟩ => ⟨S_, .f32⟩
  | .hbm, ⟨57, _⟩ => ⟨S128, .f32⟩
  | .hbm, ⟨58, _⟩ => ⟨S128, .f32⟩
  | .hbm, ⟨59, _⟩ => ⟨S128, .f32⟩
  | .hbm, ⟨60, _⟩ => ⟨S1x128, .f32⟩
  | .hbm, ⟨61, _⟩ => ⟨S100000x128, .f32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S1x128, .f32⟩
  | .hbm, ⟨67, _⟩ => ⟨S100000x128, .f32⟩
  | .hbm, ⟨68, _⟩ => ⟨S100000x128, .f32⟩
  | .hbm, ⟨69, _⟩ => ⟨S_, .f32⟩
  | .hbm, ⟨70, _⟩ => ⟨S100000x128, .f32⟩
  | .hbm, ⟨71, _⟩ => ⟨S100000x128, .f32⟩
  | .hbm, ⟨72, _⟩ => ⟨S100000x128, .f32⟩
  | .hbm, ⟨73, _⟩ => ⟨S1x128, .f32⟩
  | .hbm, ⟨74, _⟩ => ⟨S100000x128, .f32⟩
  | .hbm, ⟨75, _⟩ => ⟨S100000x128, .f32⟩
  | .hbm, ⟨76, _⟩ => ⟨S_, .f32⟩
  | .hbm, ⟨77, _⟩ => ⟨S128, .f32⟩
  | .hbm, ⟨78, _⟩ => ⟨S_, .f32⟩
  | .hbm, ⟨79, _⟩ => ⟨S128, .f32⟩
  | .hbm, ⟨80, _⟩ => ⟨S128, .f32⟩
  | .hbm, ⟨81, _⟩ => ⟨S1x128, .f32⟩
  | .hbm, ⟨82, _⟩ => ⟨S100000x128, .f32⟩
  | .hbm, ⟨83, _⟩ => ⟨S100000x128, .f32⟩
  | .hbm, ⟨84, _⟩ => ⟨S100000x128, .f32⟩
  | .hbm, ⟨85, _⟩ => ⟨S_, .f32⟩
  | .hbm, ⟨86, _⟩ => ⟨S128, .f32⟩
  | .hbm, ⟨87, _⟩ => ⟨S_, .f32⟩
  | .hbm, ⟨88, _⟩ => ⟨S128, .f32⟩
  | .hbm, ⟨89, _⟩ => ⟨S128, .f32⟩
  | .hbm, ⟨90, _⟩ => ⟨S1x128, .f32⟩
  | .hbm, ⟨91, _⟩ => ⟨S100000x128, .f32⟩
  | .hbm, ⟨92, _⟩ => ⟨S100000x128, .f32⟩
  | .hbm, ⟨93, _⟩ => ⟨S_, .f32⟩
  | .hbm, ⟨94, _⟩ => ⟨S128, .f32⟩
  | .hbm, ⟨95, _⟩ => ⟨S128, .f32⟩
  | .hbm, ⟨96, _⟩ => ⟨S128, .f32⟩
  | .hbm, ⟨97, _⟩ => ⟨S1x128, .f32⟩
  | .hbm, ⟨98, _⟩ => ⟨S100000x128, .f32⟩
  | .hbm, ⟨99, _⟩ => ⟨S100000x128, .f32⟩
  | .hbm, ⟨100, _⟩ => ⟨S1x128, .f32⟩
  | .hbm, ⟨101, _⟩ => ⟨S100000x128, .f32⟩
  | .hbm, ⟨102, _⟩ => ⟨S100000x128, .f32⟩
  | .hbm, ⟨103, _⟩ => ⟨S1x128, .f32⟩
  | .hbm, ⟨104, _⟩ => ⟨S100000x128, .f32⟩
  | .hbm, ⟨105, _⟩ => ⟨S100000x128, .f32⟩
  | .hbm, ⟨106, _⟩ => ⟨S_, .f32⟩
  | .hbm, ⟨107, _⟩ => ⟨S100000x128, .f32⟩
  | .hbm, ⟨108, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_2 : Ref sig .tc := ⟨.hbm, 39, rfl⟩
abbrev main_v24 : Ref sig .tc := ⟨.hbm, 40, rfl⟩
abbrev main_cst_3 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_4 : Ref sig .tc := ⟨.hbm, 48, rfl⟩
abbrev main_v31 : Ref sig .tc := ⟨.hbm, 49, rfl⟩
abbrev main_cst_5 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_6 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call0_cst : Ref sig .tc := ⟨.hbm, 69, rfl⟩
abbrev main_call0_v0 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_7 : Ref sig .tc := ⟨.hbm, 76, rfl⟩
abbrev main_v54 : Ref sig .tc := ⟨.hbm, 77, rfl⟩
abbrev main_cst_8 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_9 : Ref sig .tc := ⟨.hbm, 85, rfl⟩
abbrev main_v61 : Ref sig .tc := ⟨.hbm, 86, rfl⟩
abbrev main_cst_10 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_cst_11 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_call1_cst : Ref sig .tc := ⟨.hbm, 106, rfl⟩
abbrev main_call1_v0 : Ref sig .tc := ⟨.hbm, 107, rfl⟩
abbrev main_v79 : Ref sig .tc := ⟨.hbm, 108, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S100000x128 : S_.BroadcastsInDim S100000x128 (![] : Fin 0 → Fin S100000x128.rank)
  bcast_S_S1 : S_.BroadcastsInDim S1 (![] : Fin 0 → Fin S1.rank)
  bcast_S1_S1x1_1 : S1.BroadcastsInDim S1x1 (![1] : Fin 1 → Fin S1x1.rank)
  bcast_S1x1_S100000x128_0_1 : S1x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  dot_S100000x128_S128x128_S100000x128_1_0_0_1_n_n_wf : DotDims.WF S100000x128 S128x128 S100000x128 [1] [0] [0] [1] [] []

variable [Facts₀]

def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KernelRun.lean ====
/-
  The idealized kernel's run with its result kept. The program is three tiled regions among stretches of host
  operations; the contents of every buffer at each boundary are a fold from the launch memory (a stretch applies its
  operations, a region replaces its arrays by what its write-backs leave). Every weakly fair execution terminates with
  every unscoped buffer at the last boundary's contents: in particular the result array, the third region's output,
  holds what that region's write-backs leave, and the eleven arguments hold what they held at launch.
-/
import proofs.«165414_j20942260536132_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the implicit arguments of the theorem applied below are found by unifying its conclusion with this statement, which
-- takes unfolding plain definitions inside a type
set_option backward.isDefEq.respectTransparency.types false in
/-- Every weakly fair execution of the program terminates, nothing faulting, with the result array at the last
    boundary's contents and the argument arrays as launched. -/
theorem run_main : θ_run defs (onTc (τ := τ) (main (F := F))) ⟨m, fun _ => 0, ρ⟩ (fun r => ∀ c : Dev nD,
      r.2.mem ((c.tc : Thread nD τ).loc main_v59) = W6 m ρ c (Proc.devRef .tc main_v59)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v59 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c)⟩)

end Cert.KernelIdeal.RunValue

end
-- ==== Proof.LibPlainDot.lean ====
/-
  A plain matrix product read at an entry. For the dimension numbers of an [M, K] by [K, N] product (no batch axis,
  the left operand contracted on its last axis and the right on its first) the entry (p, q) of the product is
  ∑ₖ l(p, k) · r(k, q) over k : Fin K — for a tpu.matmul into the zero accumulator and for the host's dot_general alike,
  at the ideal values. General in the three extents and in the operands' formats; a printed record of these dimension
  numbers is DotDims.plain M K N up to the proof it carries, so it is passed with the equation (by rfl).
-/
import Idealize.ShloMosaic.PureOps.Ideal.Laws
import Idealize.ShloMosaic.Lib.ValueIdx

namespace Idealize.ShloMosaic.ValueIdx

/-- The left operand's row is the output's row, whatever the contraction index. -/
theorem plain_lhs_row {M K N : ℕ} (j : (⟨2, ![M, N]⟩ : Shape).Idx) (c : (DotDims.plain M K N).contr.Idx) :
    ((DotDims.plain M K N).lhsIdx j c 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The right operand's column is the output's column, whatever the contraction index. -/
theorem plain_rhs_col {M K N : ℕ} (j : (⟨2, ![M, N]⟩ : Shape).Idx) (c : (DotDims.plain M K N).contr.Idx) :
    ((DotDims.plain M K N).rhsIdx j c 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The left operand's index at output (p, q) and contraction coordinate k is (p, k). -/
theorem plain_lhsIdx {M K N : ℕ} (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a; apply Fin.ext
  match a with
  | ⟨0, _⟩ => exact plain_lhs_row (ix2 p q) _
  | ⟨1, _⟩ => exact ((DotDims.plain M K N).lhsIdx_val_of_single (cl := (1 : Fin 2)) rfl (ix2 p q) _).trans hk

/-- The right operand's index at output (p, q) and contraction coordinate k is (k, q). -/
theorem plain_rhsIdx {M K N : ℕ} (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a; apply Fin.ext
  match a with
  | ⟨0, _⟩ => exact ((DotDims.plain M K N).rhsIdx_val_of_single (cr := (0 : Fin 2)) rfl (ix2 p q) _).trans hk
  | ⟨1, _⟩ => exact plain_rhs_col (ix2 p q) _

/-- The product's sum over the contraction index, re-indexed by the contracted coordinate. -/
theorem sum_plain {M K N : ℕ} (l : (⟨2, ![M, K]⟩ : Shape).Idx → EReal) (r : (⟨2, ![K, N]⟩ : Shape).Idx → EReal)
    (p : Fin M) (q : Fin N) :
    ∑ k : (DotDims.plain M K N).contr.Idx, l ((DotDims.plain M K N).lhsIdx (ix2 p q) k) * r ((DotDims.plain M K N).rhsIdx (ix2 p q) k)
      = ∑ k : Fin K, l (ix2 p k) * r (ix2 k q) := by
  rw [← Equiv.sum_comp (contrEquiv1 (DotDims.plain M K N) K rfl rfl).symm]
  exact Finset.sum_congr rfl fun k _ => by rw [plain_lhsIdx, plain_rhsIdx]

/-- A tpu.matmul of these dimension numbers into the zero accumulator, at entry (p, q). -/
theorem matmul_plain_zero_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (p : Fin M) (q : Fin N) :
    FloatOps.matmul d prec lhs rhs (constant ⟨2, ![M, N]⟩ .f32 0x00000000#32) (ix2 p q)
      = ∑ k : Fin K, lhs (ix2 p k) * rhs (ix2 k q) := by
  subst hd
  exact (Ideal.matmul_constant_zero_apply _ prec lhs rhs (ix2 p q)).trans (sum_plain lhs rhs p q)

/-- The host's dot_general of these dimension numbers, at entry (p, q). -/
theorem dotGeneral_plain_apply {M K N : ℕ} {φ₁ φ₂ : FTy} (d : DotDims ⟨2, ![M, K]⟩ ⟨2, ![K, N]⟩ ⟨2, ![M, N]⟩)
    (hd : d = DotDims.plain M K N) (prec : Option ContractPrecision) (sched : HostSchedule)
    (lhs : FVec Ideal ⟨2, ![M, K]⟩ φ₁) (rhs : FVec Ideal ⟨2, ![K, N]⟩ φ₂) (p : Fin M) (q : Fin N) :
    FloatOps.dotGeneral d prec sched lhs rhs (ix2 p q) = ∑ k : Fin K, lhs (ix2 p k) * rhs (ix2 k q) := by
  subst hd
  exact (Ideal.dotGeneral_apply _ prec sched lhs rhs (ix2 p q)).trans (sum_plain lhs rhs p q)

end Idealize.ShloMosaic.ValueIdx
-- ==== Proof.LibPaddedRows.lean ====
/-
  Rows padded below, a row-local function, and the padding rows cut off again.
  Two whole-array functions act row by row: rows times a weight plus a one-row bias, entry (r, q) being
  ∑ₖ x(r, k) · w(k, q) + b(0, q); and three arrays plus a constant multiple of a fourth, entry by entry. Each reads,
  for an entry in row r, only row r of its row-indexed operands. So when those operands are first padded below with
  extra rows (any padding value) and the result's first M rows are then taken, the result is the function of the
  unpadded operands: the padding rows never reach the rows that are kept.
-/
import Idealize.ShloMosaic.PureOps.Ideal.Laws
import Idealize.ShloMosaic.Lib.Pipeline.Value
import Idealize.ShloMosaic.Lib.ValueIdx
import Idealize.ShloMosaic.Lib.KernelVsHost

noncomputable section

namespace Idealize.ShloMosaic.ValueIdx

open Idealize.ShloMosaic

/-- Rows times a weight plus a one-row bias, as a whole array: entry (r, q) is ∑ₖ x(r, k) · w(k, q) + b(0, q). -/
def rowsWeightBias {M K N : ℕ} (x : (⟨2, ![M, K]⟩ : Shape).Idx → EReal) (w : (⟨2, ![K, N]⟩ : Shape).Idx → EReal)
    (b : (⟨2, ![1, N]⟩ : Shape).Idx → EReal) : (⟨2, ![M, N]⟩ : Shape).Idx → EReal :=
  fun i => (∑ k : Fin K, x (ix2 (i 0) k) * w (ix2 k (i 1))) + b (ix2 (0 : Fin 1) (i 1))

/-- Three arrays and a constant multiple of a fourth, added entry by entry, as a whole array. -/
def sumThreePlusScaled {s : Shape} (cw : BitVec FTy.f32.bits) (a0 a1 a2 e : s.Idx → EReal) : s.Idx → EReal :=
  fun i => ((a0 i + a1 i) + a2 i) + Ideal.ofBits .f32 cw * e i

/-- The same with the maximum against a second constant taken last. -/
def sumThreePlusScaledMax {s : Shape} (cw zw : BitVec FTy.f32.bits) (a0 a1 a2 e : s.Idx → EReal) : s.Idx → EReal :=
  fun i => max (((a0 i + a1 i) + a2 i) + Ideal.ofBits .f32 cw * e i) (Ideal.ofBits .f32 zw)

section PadRows
variable {α : Type}

/-- An array padded below with P rows, read at a row of the original array, is the original array there. -/
theorem pad_rows_apply {M Mp C P : ℕ} (x : (⟨2, ![M, C]⟩ : Shape).Idx → α) {u : Shape} (v : u.Idx → α)
    (h : (⟨2, ![M, C]⟩ : Shape).Pads ![0, 0] ![P, 0] ![0, 0] ⟨2, ![Mp, C]⟩) (hu : 0 < u.numel)
    (r : Fin M) (hr : r.val < Mp) (k : Fin C) :
    pad ⟨2, ![Mp, C]⟩ ![0, 0] ![P, 0] ![0, 0] x v h hu (ix2 (⟨r.val, hr⟩ : Fin Mp) k) = x (ix2 r k) := by
  refine pad_apply_of_inside ![0, 0] ![P, 0] ![0, 0] x v h hu _ (ix2 r k) fun a => ?_
  match a with
  | ⟨0, _⟩ => show r.val = 0 + r.val * (0 + 1); omega
  | ⟨1, _⟩ => show k.val = 0 + k.val * (0 + 1); omega

/-- The first M rows of an array [Mp, C], read at (r, k), are the array at (r, k). -/
theorem slice_rows_apply {M Mp C : ℕ} (y : (⟨2, ![Mp, C]⟩ : Shape).Idx → α)
    (h : (⟨2, ![Mp, C]⟩ : Shape).Slices ![0, 0] ⟨2, ![M, C]⟩) (r : Fin M) (hr : r.val < Mp) (k : Fin C) :
    extractStridedSlice ⟨2, ![M, C]⟩ ![0, 0] y h (ix2 r k) = y (ix2 (⟨r.val, hr⟩ : Fin Mp) k) := by
  refine extractStridedSlice_apply ![0, 0] y h (ix2 r k) _ fun a => ?_
  match a with
  | ⟨0, _⟩ => show r.val = 0 + r.val; omega
  | ⟨1, _⟩ => show k.val = 0 + k.val; omega

end PadRows

/-- Rows times weight plus bias of the padded rows, cut back to the original rows, is rows times weight plus bias of
    the original rows. -/
theorem slice_rowsWeightBias_pad {M Mp K N P : ℕ} (x : (⟨2, ![M, K]⟩ : Shape).Idx → EReal) {u : Shape} (v : u.Idx → EReal)
    (w : (⟨2, ![K, N]⟩ : Shape).Idx → EReal) (b : (⟨2, ![1, N]⟩ : Shape).Idx → EReal)
    (hp : (⟨2, ![M, K]⟩ : Shape).Pads ![0, 0] ![P, 0] ![0, 0] ⟨2, ![Mp, K]⟩) (hu : 0 < u.numel)
    (hs : (⟨2, ![Mp, N]⟩ : Shape).Slices ![0, 0] ⟨2, ![M, N]⟩) (hM : M ≤ Mp) :
    extractStridedSlice ⟨2, ![M, N]⟩ ![0, 0]
        (rowsWeightBias (pad ⟨2, ![Mp, K]⟩ ![0, 0] ![P, 0] ![0, 0] x v hp hu) w b) hs
      = rowsWeightBias x w b := by
  funext i
  obtain ⟨r, q, rfl⟩ : ∃ (r : Fin M) (q : Fin N), i = ix2 r q := ⟨i 0, i 1, eq_ix2 i⟩
  have hr : r.val < Mp := lt_of_lt_of_le r.isLt hM
  rw [slice_rows_apply _ hs r hr q]
  unfold rowsWeightBias
  refine congrArg (· + _) (Finset.sum_congr rfl fun k _ => ?_)
  exact congrArg (· * _) (pad_rows_apply x v hp hu r hr k)

/-- The combination of four padded arrays, cut back to the original rows, is the combination of the four arrays. -/
theorem slice_sumThreePlusScaled_pad {M Mp C P : ℕ} (cw : BitVec FTy.f32.bits)
    (a0 a1 a2 e : (⟨2, ![M, C]⟩ : Shape).Idx → EReal) {u : Shape} (v0 v1 v2 v3 : u.Idx → EReal)
    (hp : (⟨2, ![M, C]⟩ : Shape).Pads ![0, 0] ![P, 0] ![0, 0] ⟨2, ![Mp, C]⟩) (hu : 0 < u.numel)
    (hs : (⟨2, ![Mp, C]⟩ : Shape).Slices ![0, 0] ⟨2, ![M, C]⟩) (hM : M ≤ Mp) :
    extractStridedSlice ⟨2, ![M, C]⟩ ![0, 0]
        (sumThreePlusScaled cw (pad ⟨2, ![Mp, C]⟩ ![0, 0] ![P, 0] ![0, 0] a0 v0 hp hu)
          (pad ⟨2, ![Mp, C]⟩ ![0, 0] ![P, 0] ![0, 0] a1 v1 hp hu) (pad ⟨2, ![Mp, C]⟩ ![0, 0] ![P, 0] ![0, 0] a2 v2 hp hu)
          (pad ⟨2, ![Mp, C]⟩ ![0, 0] ![P, 0] ![0, 0] e v3 hp hu)) hs
      = sumThreePlusScaled cw a0 a1 a2 e := by
  funext i
  obtain ⟨r, q, rfl⟩ : ∃ (r : Fin M) (q : Fin C), i = ix2 r q := ⟨i 0, i 1, eq_ix2 i⟩
  have hr : r.val < Mp := lt_of_lt_of_le r.isLt hM
  rw [slice_rows_apply _ hs r hr q]
  unfold sumThreePlusScaled
  rw [pad_rows_apply a0 v0 hp hu r hr q, pad_rows_apply a1 v1 hp hu r hr q, pad_rows_apply a2 v2 hp hu r hr q,
    pad_rows_apply e v3 hp hu r hr q]

/-- The same for the combination followed by a maximum. -/
theorem slice_sumThreePlusScaledMax_pad {M Mp C P : ℕ} (cw zw : BitVec FTy.f32.bits)
    (a0 a1 a2 e : (⟨2, ![M, C]⟩ : Shape).Idx → EReal) {u : Shape} (v0 v1 v2 v3 : u.Idx → EReal)
    (hp : (⟨2, ![M, C]⟩ : Shape).Pads ![0, 0] ![P, 0] ![0, 0] ⟨2, ![Mp, C]⟩) (hu : 0 < u.numel)
    (hs : (⟨2, ![Mp, C]⟩ : Shape).Slices ![0, 0] ⟨2, ![M, C]⟩) (hM : M ≤ Mp) :
    extractStridedSlice ⟨2, ![M, C]⟩ ![0, 0]
        (sumThreePlusScaledMax cw zw (pad ⟨2, ![Mp, C]⟩ ![0, 0] ![P, 0] ![0, 0] a0 v0 hp hu)
          (pad ⟨2, ![Mp, C]⟩ ![0, 0] ![P, 0] ![0, 0] a1 v1 hp hu) (pad ⟨2, ![Mp, C]⟩ ![0, 0] ![P, 0] ![0, 0] a2 v2 hp hu)
          (pad ⟨2, ![Mp, C]⟩ ![0, 0] ![P, 0] ![0, 0] e v3 hp hu)) hs
      = sumThreePlusScaledMax cw zw a0 a1 a2 e := by
  funext i
  obtain ⟨r, q, rfl⟩ : ∃ (r : Fin M) (q : Fin C), i = ix2 r q := ⟨i 0, i 1, eq_ix2 i⟩
  have hr : r.val < Mp := lt_of_lt_of_le r.isLt hM
  rw [slice_rows_apply _ hs r hr q]
  unfold sumThreePlusScaledMax
  rw [pad_rows_apply a0 v0 hp hu r hr q, pad_rows_apply a1 v1 hp hu r hr q, pad_rows_apply a2 v2 hp hu r hr q,
    pad_rows_apply e v3 hp hu r hr q]

end Idealize.ShloMosaic.ValueIdx

end
-- ==== Proof.LibRealArrays.lean ====
/-
  Arrays of extended reals whose entries are all real numbers.

  On the extended reals the distributive law and the exchange of a product with a sum fail at the
  infinities, so a law that needs them is applied only to arrays known to hold real numbers. This
  file says which array operations keep that property: an operation that re-lays entries
  (transpose, slice, broadcast, concatenate, gather) returns entries of its operands; a pointwise
  sum, difference, product, negation, maximum, exponential or hyperbolic tangent of real numbers is
  a real number; a quotient by a POSITIVE real and the reciprocal square root of a POSITIVE real are
  real numbers; a finite sum of real numbers is a real number, hence so is every entry of a matrix
  product and of an accumulating scatter of real arrays.
-/
import Idealize.ShloMosaic.PureOps.Ideal
import Idealize.ShloMosaic.PureOps.Ideal.Laws

noncomputable section

namespace RealArrays

open Idealize.ShloMosaic

/-! ## Real and positive extended reals -/

/-- `x` is a real number: neither infinity. -/
def IsReal (x : EReal) : Prop := ∃ r : ℝ, x = (r : EReal)

/-- `x` is a positive real number. -/
def IsPos (x : EReal) : Prop := ∃ r : ℝ, 0 < r ∧ x = (r : EReal)

theorem IsPos.isReal {x : EReal} (h : IsPos x) : IsReal x := let ⟨r, _, e⟩ := h; ⟨r, e⟩

theorem isReal_coe (r : ℝ) : IsReal (r : EReal) := ⟨r, rfl⟩

theorem isReal_zero : IsReal 0 := ⟨0, EReal.coe_zero.symm⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.neg {x : EReal} (hx : IsReal x) : IsReal (-x) := by
  obtain ⟨a, rfl⟩ := hx; exact ⟨-a, (EReal.coe_neg a).symm⟩

theorem IsReal.max {x y : EReal} (hx : IsReal x) (hy : IsReal y) : IsReal (max x y) := by
  rcases le_total x y with h | h
  · rw [max_eq_right h]; exact hy
  · rw [max_eq_left h]; exact hx

/-- The maximum of a real number and a positive real number is a positive real number. -/
theorem IsPos.max_right {x y : EReal} (hx : IsReal x) (hy : IsPos y) : IsPos (max x y) := by
  rcases le_total x y with h | h
  · rw [max_eq_right h]; exact hy
  · rw [max_eq_left h]
    obtain ⟨a, rfl⟩ := hx; obtain ⟨b, hb, rfl⟩ := hy
    exact ⟨a, lt_of_lt_of_le hb (by exact_mod_cast h), rfl⟩

theorem IsPos.add {x y : EReal} (hx : IsPos x) (hy : IsPos y) : IsPos (x + y) := by
  obtain ⟨a, ha, rfl⟩ := hx; obtain ⟨b, hb, rfl⟩ := hy
  exact ⟨a + b, add_pos ha hb, (EReal.coe_add a b).symm⟩

theorem IsPos.exp {x : EReal} (hx : IsReal x) : IsPos (Ideal.exp x) := by
  obtain ⟨a, rfl⟩ := hx; exact ⟨Real.exp a, Real.exp_pos a, Ideal.exp_coe a⟩

theorem IsReal.tanh {x : EReal} (hx : IsReal x) : IsReal (Ideal.tanh x) := by
  obtain ⟨a, rfl⟩ := hx; exact ⟨Real.tanh a, Ideal.tanh_coe a⟩

/-- A real number over a positive real number is a real number. -/
theorem IsReal.div_pos {x y : EReal} (hx : IsReal x) (hy : IsPos y) : IsReal (Ideal.div x y) := by
  obtain ⟨b, hb, rfl⟩ := hy
  rw [Ideal.div_coe (ne_of_gt hb)]
  exact hx.mul (isReal_coe _)

/-- The reciprocal square root of a positive real number is a real number. -/
theorem IsReal.rsqrt_pos {x : EReal} (hx : IsPos x) : IsReal (Ideal.rsqrt x) := by
  obtain ⟨a, ha, rfl⟩ := hx
  rw [Ideal.rsqrt_coe, if_neg (not_lt.2 ha.le), if_neg (ne_of_gt ha)]
  exact isReal_coe _

/-- A finite sum of real numbers is a real number. -/
theorem IsReal.sum {ι : Type*} (s : Finset ι) (f : ι → EReal) (h : ∀ i ∈ s, IsReal (f i)) :
    IsReal (∑ i ∈ s, f i) := by
  classical
  revert h
  refine Finset.induction_on s (fun _ => ?_) (fun a s ha ih h => ?_)
  · rw [Finset.sum_empty]; exact isReal_zero
  · rw [Finset.sum_insert ha]
    exact (h a (Finset.mem_insert_self a s)).add (ih fun i hi => h i (Finset.mem_insert_of_mem hi))

/-- The coercion of a finite sum of real numbers is the sum of the coercions. -/
theorem coe_sum {ι : Type*} (s : Finset ι) (f : ι → ℝ) :
    ((∑ i ∈ s, f i : ℝ) : EReal) = ∑ i ∈ s, (f i : EReal) := by
  classical
  refine Finset.induction_on s ?_ (fun a s ha ih => ?_)
  · rw [Finset.sum_empty, Finset.sum_empty]; exact EReal.coe_zero
  · rw [Finset.sum_insert ha, Finset.sum_insert ha, EReal.coe_add, ih]

/-! ## Arrays -/

variable {s t : Shape} {φ ψ : FTy}

/-- Every entry of the array is a real number. -/
def AllReal (v : s.Idx → EReal) : Prop := ∀ i, IsReal (v i)

/-- Every entry of the array is a positive real number. -/
def AllPos (v : s.Idx → EReal) : Prop := ∀ i, IsPos (v i)

theorem AllPos.allReal {v : s.Idx → EReal} (h : AllPos v) : AllReal v := fun i => (h i).isReal

/-! ### Pointwise operations at the ideal instance -/

theorem AllReal.addf {a b : FVec Ideal s φ} (ha : AllReal a) (hb : AllReal b) : AllReal (addf a b) :=
  fun i => (ha i).add (hb i)

theorem AllReal.subf {a b : FVec Ideal s φ} (ha : AllReal a) (hb : AllReal b) : AllReal (subf a b) :=
  fun i => (ha i).sub (hb i)

theorem AllReal.mulf {a b : FVec Ideal s φ} (ha : AllReal a) (hb : AllReal b) : AllReal (mulf a b) :=
  fun i => (ha i).mul (hb i)

theorem AllReal.maximumf {a b : FVec Ideal s φ} (ha : AllReal a) (hb : AllReal b) : AllReal (maximumf a b) :=
  fun i => (ha i).max (hb i)

theorem AllPos.maximumf_right {a b : FVec Ideal s φ} (ha : AllReal a) (hb : AllPos b) : AllPos (maximumf a b) :=
  fun i => IsPos.max_right (ha i) (hb i)

theorem AllPos.addf {a b : FVec Ideal s φ} (ha : AllPos a) (hb : AllPos b) : AllPos (addf a b) :=
  fun i => (ha i).add (hb i)

theorem AllReal.hostNegf {a : FVec Ideal s φ} (ha : AllReal a) : AllReal (Host.negf a) :=
  fun i => (ha i).neg

theorem AllPos.hostExp {a : FVec Ideal s φ} (ha : AllReal a) : AllPos (Host.exp a) :=
  fun i => IsPos.exp (ha i)

theorem AllReal.hostTanh {a : FVec Ideal s φ} (ha : AllReal a) : AllReal (Host.tanh a) :=
  fun i => (ha i).tanh

theorem AllReal.hostDivf {a b : FVec Ideal s φ} (ha : AllReal a) (hb : AllPos b) : AllReal (Host.divf a b) :=
  fun i => (ha i).div_pos (hb i)

theorem AllReal.hostRsqrt {a : FVec Ideal s φ} (ha : AllPos a) : AllReal (Host.rsqrt a) :=
  fun i => IsReal.rsqrt_pos (ha i)

/-- A selection between two real arrays is a real array, whatever the mask. -/
theorem AllReal.select {c : IVec s 1} {a b : s.Idx → EReal} (ha : AllReal a) (hb : AllReal b) :
    AllReal (select c a b) := fun i => by
  show IsReal (Scalar.select (c i) (a i) (b i))
  unfold Scalar.select
  split
  · exact ha i
  · exact hb i

/-! ### Operations that re-lay entries -/

theorem AllReal.transpose {x : s.Idx → EReal} (hx : AllReal x) (perm : List (Fin s.rank)) (h : s.Transposes perm t) :
    AllReal (transpose t perm x h) := fun _ => hx _

theorem AllReal.broadcastInDim {x : s.Idx → EReal} (hx : AllReal x) (dims : Fin s.rank → Fin t.rank)
    (h : s.BroadcastsInDim t dims) : AllReal (broadcastInDim t dims h x) := fun _ => hx _

theorem AllPos.broadcastInDim {x : s.Idx → EReal} (hx : AllPos x) (dims : Fin s.rank → Fin t.rank)
    (h : s.BroadcastsInDim t dims) : AllPos (broadcastInDim t dims h x) := fun _ => hx _

theorem AllReal.extractStridedSlice {x : s.Idx → EReal} (hx : AllReal x) (off : Fin s.rank → Nat) (h : s.Slices off t) :
    AllReal (extractStridedSlice t off x h) := fun _ => hx _

theorem AllReal.shapeCast {x : s.Idx → EReal} (hx : AllReal x) (h : s.ShapeCasts t) :
    AllReal (shapeCast t x h) := fun _ => hx _

/-- A gather reads entries of its operand, whatever the indices. -/
theorem AllReal.hostGather {si : Shape} {w : Nat} {x : s.Idx → EReal} (hx : AllReal x) (d : GatherDims s si t)
    (idx : IVec si w) : AllReal (Host.gather d x idx) := fun _ => hx _

/-- A concatenation of real arrays is a real array. -/
theorem AllReal.concatenate (a : Fin t.rank) (xs : List ((s : Shape) × (s.Idx → EReal)))
    (h : Shape.Concatenates (xs.map (·.1)) t a) (hx : ∀ p ∈ xs, AllReal p.2) : AllReal (concatenate t a xs h) := by
  intro j
  unfold Idealize.ShloMosaic.concatenate
  exact hx _ (List.getElem_mem _) _

/-! ### Sums: the host's matrix product and its accumulating scatter -/

/-- Every entry of the host's product of two real arrays is a finite sum of products of real numbers. -/
theorem AllReal.hostDotGeneral {sl sr so : Shape} {φ₁ φ₂ : FTy} (d : DotDims sl sr so) (prec : Option ContractPrecision)
    {l : FVec Ideal sl φ₁} {r : FVec Ideal sr φ₂} (hl : AllReal l) (hr : AllReal r) :
    AllReal (Host.dotGeneral d prec l r) := by
  intro j
  show IsReal (FloatOps.dotGeneral d prec .single l r j)
  rw [Ideal.dotGeneral_apply]
  exact IsReal.sum _ _ fun k _ => (hl _).mul (hr _)

/-- Every entry of an accumulating scatter of real updates onto a real array is that array's entry plus a
    finite sum of updates. -/
theorem AllReal.hostScatterAdd {si u : Shape} {w : Nat} (d : ScatterDims s si u) {x : FVec Ideal s φ} (idx : IVec si w)
    {upd : FVec Ideal u φ} (hx : AllReal x) (hu : AllReal upd) : AllReal (Host.scatterAdd d x idx upd) := by
  intro i
  show IsReal (Ideal.hostScatterAdd d x idx upd i)
  unfold Ideal.hostScatterAdd
  exact (hx i).add (IsReal.sum _ _ fun j _ => hu j)

end RealArrays

end
-- ==== Proof.LibBroadcastInDim.lean ====
/-
  `broadcast_in_dim` read at an index, for the layouts a host program meets when it spreads a per-row or per-column
  quantity over a matrix: a scalar splat to any shape; a vector `[a]` laid out as the column `[a, 1]` or `[b]` as the
  row `[1, b]`; the column and the row spread to `[a, b]`; a vector `[c]` laid out as `[1, 1, c]` and spread to
  `[a, b, c]`. General in the extents and in the element type: each result entry reads the one operand entry that
  shares its coordinates on the axes the operand keeps.
-/
import Idealize.ShloMosaic.Lib.Pipeline.Value
import Idealize.ShloMosaic.Lib.ValueIdx

namespace Idealize.ShloMosaic.ValueIdx

variable {α : Type}

/-- A scalar splat reads the scalar everywhere. -/
theorem broadcastInDim_scalar_apply {t : Shape} (x : (⟨0, ![]⟩ : Shape).Idx → α) (dims : Fin 0 → Fin t.rank)
    (h : (⟨0, ![]⟩ : Shape).BroadcastsInDim t dims) (j : t.Idx) : broadcastInDim t dims h x j = x ix0 :=
  broadcastInDim_apply dims h x j ix0 fun a => a.elim0

/-- A vector `[a]` as the column `[a, 1]`: entry `(i, u)` is the vector's entry `i`. -/
theorem broadcastInDim_a_a1_apply {a : ℕ} (x : (⟨1, ![a]⟩ : Shape).Idx → α)
    (h : (⟨1, ![a]⟩ : Shape).BroadcastsInDim ⟨2, ![a, 1]⟩ (![0] : Fin 1 → Fin 2)) (i : Fin a) (u : Fin 1) :
    broadcastInDim ⟨2, ![a, 1]⟩ ![0] h x (ix2 i u) = x (ix1 i) := by
  refine broadcastInDim_apply _ h x _ (ix1 i) fun ax => ?_
  match ax with
  | ⟨0, _⟩ =>
    show i.val = if a = 1 then 0 else i.val
    split
    · have := i.isLt; omega
    · rfl

/-- A column `[a, 1]` spread to `[a, b]`: entry `(p, c)` is the column's entry of row `p`. -/
theorem broadcastInDim_a1_ab_apply {a b : ℕ} (x : (⟨2, ![a, 1]⟩ : Shape).Idx → α)
    (h : (⟨2, ![a, 1]⟩ : Shape).BroadcastsInDim ⟨2, ![a, b]⟩ (![0, 1] : Fin 2 → Fin 2)) (p : Fin a) (c : Fin b) :
    broadcastInDim ⟨2, ![a, b]⟩ ![0, 1] h x (ix2 p c) = x (ix2 p (0 : Fin 1)) := by
  refine broadcastInDim_apply _ h x _ (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

/-- A vector `[b]` as the row `[1, b]`: entry `(u, c)` is the vector's entry `c`. -/
theorem broadcastInDim_b_1b_apply {b : ℕ} (x : (⟨1, ![b]⟩ : Shape).Idx → α)
    (h : (⟨1, ![b]⟩ : Shape).BroadcastsInDim ⟨2, ![1, b]⟩ (![1] : Fin 1 → Fin 2)) (u : Fin 1) (c : Fin b) :
    broadcastInDim ⟨2, ![1, b]⟩ ![1] h x (ix2 u c) = x (ix1 c) := by
  refine broadcastInDim_apply _ h x _ (ix1 c) fun ax => ?_
  match ax with
  | ⟨0, _⟩ =>
    show c.val = if b = 1 then 0 else c.val
    split
    · have := c.isLt; omega
    · rfl

/-- A row `[1, b]` spread to `[a, b]`: entry `(p, c)` is the row's entry `c`. -/
theorem broadcastInDim_1b_ab_apply {a b : ℕ} (x : (⟨2, ![1, b]⟩ : Shape).Idx → α)
    (h : (⟨2, ![1, b]⟩ : Shape).BroadcastsInDim ⟨2, ![a, b]⟩ (![0, 1] : Fin 2 → Fin 2)) (p : Fin a) (c : Fin b) :
    broadcastInDim ⟨2, ![a, b]⟩ ![0, 1] h x (ix2 p c) = x (ix2 (0 : Fin 1) c) := by
  refine broadcastInDim_apply _ h x _ (ix2 (0 : Fin 1) c) fun ax => ?_
  match ax with
  | ⟨0, _⟩ =>
    show 0 = if (1 : ℕ) = 1 then 0 else p.val
    rw [if_pos rfl]
  | ⟨1, _⟩ =>
    show c.val = if b = 1 then 0 else c.val
    split
    · have := c.isLt; omega
    · rfl

/-- A vector `[c]` as `[1, 1, c]`: entry `(u, v, k)` is the vector's entry `k`. -/
theorem broadcastInDim_c_11c_apply {c : ℕ} (x : (⟨1, ![c]⟩ : Shape).Idx → α)
    (h : (⟨1, ![c]⟩ : Shape).BroadcastsInDim ⟨3, ![1, 1, c]⟩ (![2] : Fin 1 → Fin 3)) (u v : Fin 1) (k : Fin c) :
    broadcastInDim ⟨3, ![1, 1, c]⟩ ![2] h x (ix3 u v k) = x (ix1 k) := by
  refine broadcastInDim_apply _ h x _ (ix1 k) fun ax => ?_
  match ax with
  | ⟨0, _⟩ =>
    show k.val = if c = 1 then 0 else k.val
    split
    · have := k.isLt; omega
    · rfl

/-- `[1, 1, c]` spread to `[a, b, c]`: entry `(p, q, k)` is the operand's entry `(0, 0, k)`. -/
theorem broadcastInDim_11c_abc_apply {a b c : ℕ} (x : (⟨3, ![1, 1, c]⟩ : Shape).Idx → α)
    (h : (⟨3, ![1, 1, c]⟩ : Shape).BroadcastsInDim ⟨3, ![a, b, c]⟩ (![0, 1, 2] : Fin 3 → Fin 3)) (p : Fin a) (q : Fin b) (k : Fin c) :
    broadcastInDim ⟨3, ![a, b, c]⟩ ![0, 1, 2] h x (ix3 p q k) = x (ix3 (0 : Fin 1) (0 : Fin 1) k) := by
  refine broadcastInDim_apply _ h x _ (ix3 (0 : Fin 1) (0 : Fin 1) k) fun ax => ?_
  match ax with
  | ⟨0, _⟩ =>
    show 0 = if (1 : ℕ) = 1 then 0 else p.val
    rw [if_pos rfl]
  | ⟨1, _⟩ =>
    show 0 = if (1 : ℕ) = 1 then 0 else q.val
    rw [if_pos rfl]
  | ⟨2, _⟩ =>
    show k.val = if c = 1 then 0 else k.val
    split
    · have := k.isLt; omega
    · rfl

end Idealize.ShloMosaic.ValueIdx
-- ==== Proof.LibBatchNormAffine.lean ====
/-
  Batch normalisation over the row axis of a matrix, written two ways, followed by a rectifier.

  For a matrix Z of M rows and N columns, column q has the mean  μ(q) = (0 + ∑ₚ Z(p,q)) / n,  the variance
  v(q) = (0 + ∑ₚ (Z(p,q) − μ(q))²) / n  and the reciprocal deviation  r(q) = 1/√(v(q) + ε),  n and ε being the
  numbers two float words denote. The centred spelling normalises an entry as
      ((Z(p,q) − μ(q)) · r(q)) · γ(q) + β(q),
  the folded spelling first forms a scale row  s = γ · r  and a shift row  t = β − μ · s  and then takes
      Z(p,q) · s(q) + t(q).
  Over the real numbers these agree by distributivity. On the extended reals distributivity needs finite operands, and
  they are: a sum of real numbers is real, a variance of real numbers is a non-negative real, so for positive n and ε
  the sum v(q) + ε is a positive real and its reciprocal square root is real. Both spellings end with the maximum
  against the same constant. General in M and N.
-/
import Idealize.ShloMosaic.PureOps.Ideal.Laws
import Idealize.ShloMosaic.Lib.Pipeline.Value
import Idealize.ShloMosaic.Lib.ValueIdx
import Idealize.ShloMosaic.Lib.ValueLayout
import proofs.«165414_j20942260536132_1_alg».proof.Proof.LibRealArrays
import proofs.«165414_j20942260536132_1_alg».proof.Proof.LibBroadcastInDim

noncomputable section

namespace BatchNormAffine

open Idealize.ShloMosaic Idealize.ShloMosaic.ValueIdx RealArrays

/-! ## Non-negative real numbers among the extended reals -/

/-- `x` is a non-negative real number. -/
def IsNonneg (x : EReal) : Prop := ∃ r : ℝ, 0 ≤ r ∧ x = (r : EReal)

theorem IsNonneg.isReal {x : EReal} (h : IsNonneg x) : IsReal x := let ⟨r, _, e⟩ := h; ⟨r, e⟩

theorem isNonneg_zero : IsNonneg 0 := ⟨0, le_refl _, EReal.coe_zero.symm⟩

theorem IsNonneg.add {x y : EReal} (hx : IsNonneg x) (hy : IsNonneg y) : IsNonneg (x + y) := by
  obtain ⟨a, ha, rfl⟩ := hx; obtain ⟨b, hb, rfl⟩ := hy
  exact ⟨a + b, add_nonneg ha hb, (EReal.coe_add a b).symm⟩

/-- A finite sum of non-negative reals is a non-negative real. -/
theorem IsNonneg.sum {ι : Type*} (s : Finset ι) (f : ι → EReal) (h : ∀ i ∈ s, IsNonneg (f i)) :
    IsNonneg (∑ i ∈ s, f i) := by
  classical
  revert h
  refine Finset.induction_on s (fun _ => ?_) (fun a s ha ih h => ?_)
  · rw [Finset.sum_empty]; exact isNonneg_zero
  · rw [Finset.sum_insert ha]
    exact (h a (Finset.mem_insert_self a s)).add (ih fun i hi => h i (Finset.mem_insert_of_mem hi))

/-- The square of a real number is a non-negative real. -/
theorem isNonneg_mul_self {x : EReal} (hx : IsReal x) : IsNonneg (x * x) := by
  obtain ⟨a, rfl⟩ := hx
  exact ⟨a * a, mul_self_nonneg a, (EReal.coe_mul a a).symm⟩

/-- A non-negative real over a positive real is a non-negative real. -/
theorem IsNonneg.div_pos {x y : EReal} (hx : IsNonneg x) (hy : IsPos y) : IsNonneg (Ideal.div x y) := by
  obtain ⟨a, ha, rfl⟩ := hx; obtain ⟨b, hb, rfl⟩ := hy
  rw [Ideal.div_coe (ne_of_gt hb)]
  exact ⟨a * (1 / b), mul_nonneg ha (le_of_lt (one_div_pos.mpr hb)), (EReal.coe_mul a (1 / b)).symm⟩

/-- A non-negative real plus a positive real is a positive real. -/
theorem IsNonneg.add_pos {x y : EReal} (hx : IsNonneg x) (hy : IsPos y) : IsPos (x + y) := by
  obtain ⟨a, ha, rfl⟩ := hx; obtain ⟨b, hb, rfl⟩ := hy
  exact ⟨a + b, add_pos_of_nonneg_of_pos ha hb, (EReal.coe_add a b).symm⟩

/-! ## The law that joins the two spellings -/

/-- For real numbers the folded spelling is the centred one: z·(g·r) + (b − μ·(g·r)) = ((z − μ)·r)·g + b. -/
theorem folded_eq_centred {z μ r g b : EReal} (hz : IsReal z) (hμ : IsReal μ) (hr : IsReal r) (hg : IsReal g)
    (hb : IsReal b) : z * (g * r) + (b - μ * (g * r)) = (z - μ) * r * g + b := by
  obtain ⟨z, rfl⟩ := hz; obtain ⟨μ, rfl⟩ := hμ; obtain ⟨r, rfl⟩ := hr; obtain ⟨g, rfl⟩ := hg; obtain ⟨b, rfl⟩ := hb
  have h : z * (g * r) + (b - μ * (g * r)) = (z - μ) * r * g + b := by ring
  exact_mod_cast congrArg (fun t : ℝ => (t : EReal)) h

/-! ## The host's sum over an axis keeps real and non-negative entries -/

section Sums
variable {s t u : Shape} {axes : List (Fin s.rank)} {φ : FTy}

/-- The host's sum over some axes of a real array from a real initial value is a real array. -/
theorem allReal_hostReduceAdd {x : FVec Ideal s φ} {init : u.Idx → Ideal φ} (hx : AllReal x) (hi : AllReal init)
    (h : s.ReducesTo axes t) (hu : 0 < u.numel) : AllReal (Host.reduceAdd x init h hu) := fun j => by
  show IsReal (Ideal.hostReduceAdd h x (init (Shape.Idx.first hu)) j)
  unfold Ideal.hostReduceAdd
  exact (hi _).add (IsReal.sum _ _ fun i _ => hx i)

/-- The host's sum of non-negative reals from a non-negative initial value has non-negative real entries. -/
theorem isNonneg_hostReduceAdd {x : FVec Ideal s φ} {init : u.Idx → Ideal φ} (hx : ∀ i, IsNonneg (x i))
    (hi : ∀ i, IsNonneg (init i)) (h : s.ReducesTo axes t) (hu : 0 < u.numel) (j : t.Idx) :
    IsNonneg (Host.reduceAdd x init h hu j) := by
  show IsNonneg (Ideal.hostReduceAdd h x (init (Shape.Idx.first hu)) j)
  unfold Ideal.hostReduceAdd
  exact (hi _).add (IsNonneg.sum _ _ fun i _ => hx i)

end Sums

/-- The zero word is a non-negative real, as a scalar array. -/
theorem isNonneg_zeroConst (i : (⟨0, ![]⟩ : Shape).Idx) :
    IsNonneg (constant (F := Ideal) ⟨0, ![]⟩ .f32 0x00000000#32 i) := by
  show IsNonneg (Ideal.ofBits .f32 0x00000000#32)
  rw [Ideal.ofBits_zero_f32]; exact isNonneg_zero

/-! ## Column statistics as a host program writes them -/

/-- The shape facts a host program states for the statistics of an [M, N] matrix over its row axis. -/
structure StatFacts (M N : ℕ) : Prop where
  /-- summing an [M, N] array over axis 0 leaves [N] -/
  red : (⟨2, ![M, N]⟩ : Shape).ReducesTo [(0 : Fin 2)] ⟨1, ![N]⟩
  /-- the scalar shape has an element -/
  one : 0 < (⟨0, ![]⟩ : Shape).numel
  /-- a scalar spread to [N] -/
  toVec : (⟨0, ![]⟩ : Shape).BroadcastsInDim ⟨1, ![N]⟩ (![] : Fin 0 → Fin 1)
  /-- a vector [N] laid as the row [1, N] -/
  toRow : (⟨1, ![N]⟩ : Shape).BroadcastsInDim ⟨2, ![1, N]⟩ (![1] : Fin 1 → Fin 2)
  /-- the row spread over the M rows -/
  toAll : (⟨2, ![1, N]⟩ : Shape).BroadcastsInDim ⟨2, ![M, N]⟩ (![0, 1] : Fin 2 → Fin 2)

section Stats
variable {M N : ℕ} (f : StatFacts M N) (nw ew : BitVec 32)

/-- A vector [N] laid along every row of an [M, N] array. -/
def spread (v : FVec Ideal ⟨1, ![N]⟩ .f32) : FVec Ideal ⟨2, ![M, N]⟩ .f32 :=
  broadcastInDim ⟨2, ![M, N]⟩ ![0, 1] f.toAll (broadcastInDim ⟨2, ![1, N]⟩ ![1] f.toRow v)

/-- The spread vector at (p, q) is the vector's entry q. -/
theorem spread_apply (v : FVec Ideal ⟨1, ![N]⟩ .f32) (p : Fin M) (q : Fin N) : spread f v (ix2 p q) = v (ix1 q) := by
  unfold spread
  rw [broadcastInDim_1b_ab_apply, broadcastInDim_b_1b_apply]

/-- A float word spread to a vector [N]. -/
def wordVec (w : BitVec 32) : FVec Ideal ⟨1, ![N]⟩ .f32 :=
  broadcastInDim ⟨1, ![N]⟩ ![] f.toVec (constant (F := Ideal) ⟨0, ![]⟩ .f32 w)

theorem wordVec_apply (w : BitVec 32) (j : (⟨1, ![N]⟩ : Shape).Idx) : wordVec f w j = Ideal.ofBits .f32 w := by
  unfold wordVec
  rw [broadcastInDim_scalar_apply]; rfl

/-- The column sums from zero. -/
def colSum (Z : FVec Ideal ⟨2, ![M, N]⟩ .f32) : FVec Ideal ⟨1, ![N]⟩ .f32 :=
  Host.reduceAdd Z (constant (F := Ideal) ⟨0, ![]⟩ .f32 0x00000000#32) f.red f.one

/-- The column means: the column sums over the number the word `nw` denotes. -/
def colMean (Z : FVec Ideal ⟨2, ![M, N]⟩ .f32) : FVec Ideal ⟨1, ![N]⟩ .f32 :=
  Host.divf (colSum f Z) (wordVec f nw)

/-- The squared deviations from the column means. -/
def sqDev (Z : FVec Ideal ⟨2, ![M, N]⟩ .f32) : FVec Ideal ⟨2, ![M, N]⟩ .f32 :=
  mulf (subf Z (spread f (colMean f nw Z))) (subf Z (spread f (colMean f nw Z)))

/-- The column variances. -/
def colVar (Z : FVec Ideal ⟨2, ![M, N]⟩ .f32) : FVec Ideal ⟨1, ![N]⟩ .f32 :=
  Host.divf (colSum f (sqDev f nw Z)) (wordVec f nw)

/-- The reciprocal deviations 1/√(variance + ε), ε the number the word `ew` denotes. -/
def colRstd (Z : FVec Ideal ⟨2, ![M, N]⟩ .f32) : FVec Ideal ⟨1, ![N]⟩ .f32 :=
  Host.rsqrt (addf (colVar f nw Z) (wordVec f ew))

/-- A word that denotes a positive real, spread to a vector, is a vector of positive reals. -/
theorem allPos_wordVec {w : BitVec 32} (hw : IsPos (Ideal.ofBits .f32 w)) : AllPos (wordVec (N := N) f w) := fun j => by
  rw [wordVec_apply]; exact hw

variable {nw ew}
variable (hn : IsPos (Ideal.ofBits .f32 nw)) (he : IsPos (Ideal.ofBits .f32 ew))
include hn

/-- The column means of a real matrix are real. -/
theorem allReal_colMean {Z : FVec Ideal ⟨2, ![M, N]⟩ .f32} (hZ : AllReal Z) : AllReal (colMean f nw Z) :=
  AllReal.hostDivf (allReal_hostReduceAdd hZ (fun i => (isNonneg_zeroConst i).isReal) f.red f.one) (allPos_wordVec f hn)

/-- The column variances of a real matrix are non-negative reals. -/
theorem isNonneg_colVar {Z : FVec Ideal ⟨2, ![M, N]⟩ .f32} (hZ : AllReal Z) (j : (⟨1, ![N]⟩ : Shape).Idx) :
    IsNonneg (colVar f nw Z j) := by
  have hd : AllReal (subf Z (spread f (colMean f nw Z))) :=
    AllReal.subf hZ (AllReal.broadcastInDim (AllReal.broadcastInDim (allReal_colMean f hn hZ) _ _) _ _)
  show IsNonneg (Ideal.div (colSum f (sqDev f nw Z) j) (wordVec f nw j))
  exact (isNonneg_hostReduceAdd (fun i => isNonneg_mul_self (hd i)) isNonneg_zeroConst f.red f.one j).div_pos
    (allPos_wordVec f hn j)

include he

/-- The reciprocal deviations of a real matrix are real. -/
theorem allReal_colRstd {Z : FVec Ideal ⟨2, ![M, N]⟩ .f32} (hZ : AllReal Z) : AllReal (colRstd f nw ew Z) :=
  AllReal.hostRsqrt fun j => (isNonneg_colVar f hn hZ j).add_pos (allPos_wordVec f he j)

end Stats

/-! ## The two spellings -/

section Spellings
variable {M N : ℕ} (f : StatFacts M N) (nw ew zw : BitVec 32)

/-- Folded: entry (p, q) is the maximum of Z(p,q) · s(0,q) + t(0,q) and the constant, for a scale row and a shift row. -/
def affineRelu (Z : (⟨2, ![M, N]⟩ : Shape).Idx → EReal) (s t : (⟨2, ![1, N]⟩ : Shape).Idx → EReal) :
    (⟨2, ![M, N]⟩ : Shape).Idx → EReal :=
  fun i => max (Z i * s (ix2 (0 : Fin 1) (i 1)) + t (ix2 (0 : Fin 1) (i 1))) (Ideal.ofBits .f32 zw)

/-- The scale vector γ · r. -/
def scaleVec (Z : FVec Ideal ⟨2, ![M, N]⟩ .f32) (γ : FVec Ideal ⟨1, ![N]⟩ .f32) : FVec Ideal ⟨1, ![N]⟩ .f32 :=
  mulf γ (colRstd f nw ew Z)

/-- The shift vector β − μ · (γ · r). -/
def shiftVec (Z : FVec Ideal ⟨2, ![M, N]⟩ .f32) (γ β : FVec Ideal ⟨1, ![N]⟩ .f32) : FVec Ideal ⟨1, ![N]⟩ .f32 :=
  subf β (mulf (colMean f nw Z) (scaleVec f nw ew Z γ))

/-- Centred, as a host program writes it, with the rectifier's constant spread from a scalar. -/
def normRelu (hz : (⟨0, ![]⟩ : Shape).BroadcastsInDim ⟨2, ![M, N]⟩ (![] : Fin 0 → Fin 2))
    (Z : FVec Ideal ⟨2, ![M, N]⟩ .f32) (γ β : FVec Ideal ⟨1, ![N]⟩ .f32) : FVec Ideal ⟨2, ![M, N]⟩ .f32 :=
  maximumf
    (addf (mulf (mulf (subf Z (spread f (colMean f nw Z))) (spread f (colRstd f nw ew Z))) (spread f γ)) (spread f β))
    (broadcastInDim ⟨2, ![M, N]⟩ ![] hz (constant (F := Ideal) ⟨0, ![]⟩ .f32 zw))

variable {nw ew}

/-- THE LAW: for a real matrix and real γ, β, positive n and ε, the folded spelling with the scale and shift vectors
    laid as rows is the centred spelling. -/
theorem affineRelu_eq_normRelu (hn : IsPos (Ideal.ofBits .f32 nw)) (he : IsPos (Ideal.ofBits .f32 ew))
    (hz : (⟨0, ![]⟩ : Shape).BroadcastsInDim ⟨2, ![M, N]⟩ (![] : Fin 0 → Fin 2))
    (hc : (⟨1, ![N]⟩ : Shape).ShapeCasts ⟨2, ![1, N]⟩)
    {Z : FVec Ideal ⟨2, ![M, N]⟩ .f32} {γ β : FVec Ideal ⟨1, ![N]⟩ .f32} (hZ : AllReal Z) (hγ : AllReal γ) (hβ : AllReal β) :
    affineRelu zw Z (shapeCast ⟨2, ![1, N]⟩ (scaleVec f nw ew Z γ) hc) (shapeCast ⟨2, ![1, N]⟩ (shiftVec f nw ew Z γ β) hc)
      = normRelu f nw ew zw hz Z γ β := by
  funext i
  obtain ⟨p, q, rfl⟩ : ∃ (p : Fin M) (q : Fin N), i = ix2 p q := ⟨i 0, i 1, eq_ix2 i⟩
  show max (Z (ix2 p q) * shapeCast ⟨2, ![1, N]⟩ (scaleVec f nw ew Z γ) hc (ix2 (0 : Fin 1) q)
      + shapeCast ⟨2, ![1, N]⟩ (shiftVec f nw ew Z γ β) hc (ix2 (0 : Fin 1) q)) (Ideal.ofBits .f32 zw) = _
  rw [shapeCast_a_1a_apply, shapeCast_a_1a_apply]
  unfold normRelu
  rw [maximumf_apply, addf_apply, mulf_apply, mulf_apply, subf_apply, spread_apply, spread_apply, spread_apply,
    spread_apply, broadcastInDim_scalar_apply]
  show max (Z (ix2 p q) * (γ (ix1 q) * colRstd f nw ew Z (ix1 q))
      + (β (ix1 q) - colMean f nw Z (ix1 q) * (γ (ix1 q) * colRstd f nw ew Z (ix1 q)))) (Ideal.ofBits .f32 zw) = _
  rw [folded_eq_centred (hZ _) (allReal_colMean f hn hZ _) (allReal_colRstd f hn he hZ _) (hγ _) (hβ _)]
  rfl

/-- The centred spelling of a real matrix with real γ, β (positive n and ε, a real constant) is a real matrix. -/
theorem allReal_normRelu (hn : IsPos (Ideal.ofBits .f32 nw)) (he : IsPos (Ideal.ofBits .f32 ew))
    (hzw : IsReal (Ideal.ofBits .f32 zw))
    (hz : (⟨0, ![]⟩ : Shape).BroadcastsInDim ⟨2, ![M, N]⟩ (![] : Fin 0 → Fin 2))
    {Z : FVec Ideal ⟨2, ![M, N]⟩ .f32} {γ β : FVec Ideal ⟨1, ![N]⟩ .f32} (hZ : AllReal Z) (hγ : AllReal γ) (hβ : AllReal β) :
    AllReal (normRelu f nw ew zw hz Z γ β) := by
  have sp : ∀ {v : FVec Ideal ⟨1, ![N]⟩ .f32}, AllReal v → AllReal (spread (M := M) f v) := fun hv =>
    AllReal.broadcastInDim (AllReal.broadcastInDim hv _ _) _ _
  unfold normRelu
  refine AllReal.maximumf (AllReal.addf (AllReal.mulf (AllReal.mulf (AllReal.subf hZ (sp (allReal_colMean f hn hZ)))
    (sp (allReal_colRstd f hn he hZ))) (sp hγ)) (sp hβ)) (AllReal.broadcastInDim (fun _ => hzw) _ _)

end Spellings

end BatchNormAffine

end
-- ==== Proof.LibDenseBnBodies.lean ====
/-
  Three kernel bodies of a dense layer with batch normalisation, as whole-array functions at the ideal values, general
  in their extents.
  (1) Rows [M, K] and a weight [K, N] narrowed to bf16 (no change of value), multiplied into a zero accumulator, plus
      a one-row bias [1, N] laid along every row: entry (p, q) is ∑ₖ x(p,k) · w(k,q) + b(0,q).
  (2) Rows times a scale row plus a shift row, then the maximum with a constant: entry (p, q) is
      max (x(p,q) · s(0,q) + t(0,q)) c.
  (3) The second followed by the first.
  Each entry of such a result in row p reads only row p of the row-indexed operand, so a block of rows of the result
  is the result of the block of rows: the two congruence lemmas at an entry say this in the form a tiled kernel needs.
-/
import Idealize.ShloMosaic.Lib.Pipeline.Value
import Idealize.ShloMosaic.Lib.ValueIdx
import Idealize.ShloMosaic.Lib.ValueLayout
import proofs.«165414_j20942260536132_1_alg».proof.Proof.LibPlainDot
import proofs.«165414_j20942260536132_1_alg».proof.Proof.LibPaddedRows
import proofs.«165414_j20942260536132_1_alg».proof.Proof.LibBatchNormAffine

noncomputable section

namespace DenseBnBodies

open Idealize.ShloMosaic Idealize.ShloMosaic.ValueIdx BatchNormAffine

variable {M K N : ℕ}

/-- (1) bf16-narrowed rows times bf16-narrowed weight into a zero accumulator, plus the bias row. -/
theorem dense_body (d : DotDims ⟨2, ![M, K]⟩ ⟨2, ![K, N]⟩ ⟨2, ![M, N]⟩) (hd : d = DotDims.plain M K N)
    (x : FVec Ideal ⟨2, ![M, K]⟩ .f32) (w : FVec Ideal ⟨2, ![K, N]⟩ .f32) (b : FVec Ideal ⟨2, ![1, N]⟩ .f32)
    (hb : (⟨2, ![1, N]⟩ : Shape).ShapeCasts ⟨2, ![1, N]⟩) (hbc : (⟨2, ![1, N]⟩ : Shape).Broadcasts ⟨2, ![M, N]⟩)
    (hlt : FTy.bf16.bits < FTy.f32.bits) :
    addf (matmul d none (truncf .bf16 x hlt) (truncf .bf16 w hlt) (constant ⟨2, ![M, N]⟩ .f32 0x00000000#32))
        (broadcastTo ⟨2, ![M, N]⟩ (shapeCast ⟨2, ![1, N]⟩ b hb) hbc)
      = rowsWeightBias x w b := by
  funext i
  obtain ⟨p, q, rfl⟩ : ∃ (p : Fin M) (q : Fin N), i = ix2 p q := ⟨i 0, i 1, eq_ix2 i⟩
  rw [addf_apply, shapeCast_self, broadcastTo_1b_ab_apply]
  show _ = (∑ k : Fin K, x (ix2 p k) * w (ix2 k q)) + b (ix2 (0 : Fin 1) q)
  refine congrArg (· + b (ix2 (0 : Fin 1) q)) ?_
  exact matmul_plain_zero_apply d hd none (truncf .bf16 x hlt) (truncf .bf16 w hlt) p q

/-- (2) rows times a scale row plus a shift row, then the maximum with the constant. -/
theorem affine_body (zw : BitVec 32) (x : FVec Ideal ⟨2, ![M, N]⟩ .f32) (s t : FVec Ideal ⟨2, ![1, N]⟩ .f32)
    (hx : (⟨2, ![M, N]⟩ : Shape).ShapeCasts ⟨2, ![M, N]⟩)
    (hb : (⟨2, ![1, N]⟩ : Shape).ShapeCasts ⟨2, ![1, N]⟩) (hbc : (⟨2, ![1, N]⟩ : Shape).Broadcasts ⟨2, ![M, N]⟩) :
    maximumf (addf (mulf (shapeCast ⟨2, ![M, N]⟩ x hx) (broadcastTo ⟨2, ![M, N]⟩ (shapeCast ⟨2, ![1, N]⟩ s hb) hbc))
        (broadcastTo ⟨2, ![M, N]⟩ (shapeCast ⟨2, ![1, N]⟩ t hb) hbc))
        (broadcast ⟨2, ![M, N]⟩ (Scalar.ofBits (F := Ideal) .f32 zw))
      = affineRelu zw x s t := by
  funext i
  obtain ⟨p, q, rfl⟩ : ∃ (p : Fin M) (q : Fin N), i = ix2 p q := ⟨i 0, i 1, eq_ix2 i⟩
  rw [shapeCast_self, shapeCast_self, shapeCast_self, maximumf_apply, addf_apply, mulf_apply, broadcastTo_1b_ab_apply,
    broadcastTo_1b_ab_apply]
  rfl

/-- Rows times weight plus bias at an entry reads row p of the rows, column q of the weight and entry q of the bias:
    two sets of operands that agree there give the same entry. -/
theorem rowsWeightBias_congr {M' : ℕ} (x : (⟨2, ![M, K]⟩ : Shape).Idx → EReal) (w : (⟨2, ![K, N]⟩ : Shape).Idx → EReal)
    (b : (⟨2, ![1, N]⟩ : Shape).Idx → EReal) (x' : (⟨2, ![M', K]⟩ : Shape).Idx → EReal)
    (w' : (⟨2, ![K, N]⟩ : Shape).Idx → EReal) (b' : (⟨2, ![1, N]⟩ : Shape).Idx → EReal)
    (p : Fin M) (p' : Fin M') (q : Fin N) (hx : ∀ k : Fin K, x' (ix2 p' k) = x (ix2 p k))
    (hw : ∀ k : Fin K, w' (ix2 k q) = w (ix2 k q)) (hb : b' (ix2 (0 : Fin 1) q) = b (ix2 (0 : Fin 1) q)) :
    rowsWeightBias x' w' b' (ix2 p' q) = rowsWeightBias x w b (ix2 p q) := by
  show (∑ k : Fin K, x' (ix2 p' k) * w' (ix2 k q)) + b' (ix2 (0 : Fin 1) q)
    = (∑ k : Fin K, x (ix2 p k) * w (ix2 k q)) + b (ix2 (0 : Fin 1) q)
  rw [hb]
  refine congrArg (· + b (ix2 (0 : Fin 1) q)) (Finset.sum_congr rfl fun k _ => ?_)
  rw [hx k, hw k]

/-- The affine-then-rectify entry (p, q) reads entry (p, q) of the rows and entry q of each row operand. -/
theorem affineRelu_congr {M' : ℕ} (zw : BitVec 32) (x : (⟨2, ![M, N]⟩ : Shape).Idx → EReal)
    (s t : (⟨2, ![1, N]⟩ : Shape).Idx → EReal) (x' : (⟨2, ![M', N]⟩ : Shape).Idx → EReal)
    (s' t' : (⟨2, ![1, N]⟩ : Shape).Idx → EReal) (p : Fin M) (p' : Fin M') (q : Fin N)
    (hx : x' (ix2 p' q) = x (ix2 p q)) (hs : s' (ix2 (0 : Fin 1) q) = s (ix2 (0 : Fin 1) q))
    (ht : t' (ix2 (0 : Fin 1) q) = t (ix2 (0 : Fin 1) q)) :
    affineRelu zw x' s' t' (ix2 p' q) = affineRelu zw x s t (ix2 p q) := by
  show max (x' (ix2 p' q) * s' (ix2 (0 : Fin 1) q) + t' (ix2 (0 : Fin 1) q)) (Ideal.ofBits .f32 zw)
    = max (x (ix2 p q) * s (ix2 (0 : Fin 1) q) + t (ix2 (0 : Fin 1) q)) (Ideal.ofBits .f32 zw)
  rw [hx, hs, ht]

/-- Rows times a real weight plus a real bias row, of real rows, is a real matrix. -/
theorem allReal_rowsWeightBias {x : (⟨2, ![M, K]⟩ : Shape).Idx → EReal} {w : (⟨2, ![K, N]⟩ : Shape).Idx → EReal}
    {b : (⟨2, ![1, N]⟩ : Shape).Idx → EReal} (hx : RealArrays.AllReal x) (hw : RealArrays.AllReal w)
    (hb : RealArrays.AllReal b) : RealArrays.AllReal (rowsWeightBias x w b) := fun i =>
  (RealArrays.IsReal.sum _ _ fun k _ => (hx _).mul (hw _)).add (hb _)

end DenseBnBodies

end
-- ==== Proof.KernelRegion0.lean ====
/-
  The first region's value. The region tiles the rows of a [100000, 128] array h into 20 blocks of 5000 rows; at
  point t its body takes block t of h, the whole weight [128, 128] and the whole bias row [1, 128] and writes
  block t of the output: rows times weight plus bias. An output entry in row r reads only row r of h, so what point t
  writes back is block t of the whole-array function  (r, q) ↦ ∑ₖ h(r,k) · w(k,q) + b(0,q); the 20 blocks cover all
  100000 rows (row r lies in block r / 5000), so the output array ends holding that function everywhere.
-/
import proofs.«165414_j20942260536132_1_alg».proof.Proof.Gen.KernelIdeal.Frame
import proofs.«165414_j20942260536132_1_alg».proof.Proof.LibDenseBnBodies

set_option maxRecDepth 16384

noncomputable section

namespace Cert.KernelIdeal.RegionValue

open Cert.KernelIdeal Cert.KernelIdeal.Gen
open Idealize.ShloMosaic Idealize.ShloMosaic.TcCoe Idealize.ShloMosaic.ValueIdx Idealize.SL.Sem
open Idealize.ShloMosaic.Pipeline (Dat Cfg Window)
open BatchNormAffine DenseBnBodies

variable (V : (c : Dev nD) → (b : Ref sig .tc) → Buf (Elt Ideal) ((c : Thread nD τ).loc b))

/-- The zero offset of a whole-buffer rectangle. -/
theorem zero_off : (![0, 0] : Fin 2 → Nat) = fun _ => 0 := funext fun a => by fin_cases a <;> rfl

/-- The first region's body is rows times weight plus bias of its three loaded blocks. -/
theorem pay0_eq (x : Vec Ideal S5000x128 .f32) (w : Vec Ideal S128x128 .f32) (b : Vec Ideal S1x128 .f32) :
    k0_pay1 x w b = rowsWeightBias x w b := by
  unfold k0_pay1
  rw [shapeCast_self]
  exact dense_body dot_S5000x128_S128x128_S5000x128_1_0_0_1_n_n rfl x w b _ _ _

/-- The printed index maps over the grid: the row windows move one block per point, the weight and bias stay. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Every block of rows is some point's. -/
theorem idx_onto0 : ∀ q0 : Fin 20, ∃ t : Fin cfg0.N, win0_3.index t = ![q0.val, 0] :=
  (by decide +kernel : ∀ q0 : Fin 20, ∃ t : Fin grid0.N, win0_3.index t = ![q0.val, 0])

/-- What point t writes back is block t of rows times weight plus bias of the arrays as the region finds them. -/
theorem flushed0 (c : Dev nD) (t : Fin cfg0.N) :
    (dat0 V c).flushed 3 t = ((cfg0.win 3).blk t).view.read (Elt Ideal)
      (rowsWeightBias (V c main_v18) (V c main_arg3) (V c main_v19)) := by
  show (cfg0.win 3).cut (grid0.coords t) ((dat0 V c).after 3 t) = _
  rw [after0_3]
  unfold out0_3
  rw [View.canon_unit_zero zero_off]
  simp only [View.ld_unit_zero (S := S5000x128) zero_off, View.ld_unit_zero (S := S128x128) zero_off,
    View.ld_unit_zero (S := S1x128) zero_off]
  rw [pay0_eq]
  obtain ⟨e0, e1, e2, e3, e4, e5, e6, e7⟩ := idx_facts0 t
  refine funext fun (j : S5000x128.Idx) => ?_
  obtain ⟨y0, y1, rfl⟩ : ∃ (y0 : Fin 5000) (y1 : Fin 128), j = ix2 y0 y1 := ⟨j 0, j 1, eq_ix2 j⟩
  have ht : t.val < 20 := lt_of_lt_of_eq t.isLt (show cfg0.N = 20 from N_0)
  have hr : t.val * 5000 + y0.val < 100000 := by have := y0.isLt; omega
  have hout : ((cfg0.win 3).blk t).view.emb (ix2 y0 y1) = ix2 (⟨t.val * 5000 + y0.val, hr⟩ : Fin 100000) y1 := by
    funext a; apply Fin.ext
    match a with
    | ⟨0, _⟩ => show win0_3.index t (0 : Fin 2) * 5000 + 1 * y0.val = t.val * 5000 + y0.val; omega
    | ⟨1, _⟩ => show win0_3.index t (1 : Fin 2) * 128 + 1 * y1.val = y1.val; omega
  show rowsWeightBias (iblk0 V c 0 t) (iblk0 V c 1 t) (iblk0 V c 2 t) (ix2 y0 y1)
    = rowsWeightBias (V c main_v18) (V c main_arg3) (V c main_v19) (((cfg0.win 3).blk t).view.emb (ix2 y0 y1))
  rw [hout]
  refine rowsWeightBias_congr _ _ _ _ _ _ _ y0 y1 (fun k => ?_) (fun k => ?_) ?_
  · show V c main_v18 (((cfg0.win 0).blk t).view.emb (ix2 y0 k)) = V c main_v18 (ix2 _ k)
    refine congrArg (V c main_v18) ?_
    funext a; apply Fin.ext
    match a with
    | ⟨0, _⟩ => show win0_0.index t (0 : Fin 2) * 5000 + 1 * y0.val = t.val * 5000 + y0.val; omega
    | ⟨1, _⟩ => show win0_0.index t (1 : Fin 2) * 128 + 1 * k.val = k.val; omega
  · show V c main_arg3 (((cfg0.win 1).blk t).view.emb (ix2 k y1)) = V c main_arg3 (ix2 k y1)
    refine congrArg (V c main_arg3) ?_
    funext a; apply Fin.ext
    match a with
    | ⟨0, _⟩ => show win0_1.index t (0 : Fin 2) * 128 + 1 * k.val = k.val; omega
    | ⟨1, _⟩ => show win0_1.index t (1 : Fin 2) * 128 + 1 * y1.val = y1.val; omega
  · show V c main_v19 (((cfg0.win 2).blk t).view.emb (ix2 (0 : Fin 1) y1)) = V c main_v19 (ix2 (0 : Fin 1) y1)
    refine congrArg (V c main_v19) ?_
    funext a; apply Fin.ext
    match a with
    | ⟨0, _⟩ => show win0_2.index t (0 : Fin 2) * 1 + 1 * 0 = 0; omega
    | ⟨1, _⟩ => show win0_2.index t (1 : Fin 2) * 128 + 1 * y1.val = y1.val; omega

/-- An index of the output array is in point t's block iff each coordinate is in the block's range on its axis. -/
theorem mem_blk0 (t : Fin cfg0.N) (i : S100000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v20).slice (win0_3.rect t)).set ↔ _
  rw [View.set_slice_whole, Rect.mem_set_unit]
  exact Iff.rfl

/-- Every index of the output array lies in the block of the point its row selects. -/
theorem cover0 (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  obtain ⟨t, ht⟩ := idx_onto0 ⟨(i 0).val / 5000, by omega⟩
  have q0 : win0_3.index t (0 : Fin 2) = (i 0).val / 5000 := congrFun ht 0
  have q1 : win0_3.index t (1 : Fin 2) = 0 := congrFun ht 1
  refine ⟨t, flush0_3 t, ?_⟩
  rw [mem_blk0]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- The first region's output array after the region: rows times weight plus bias of the arrays it finds. -/
theorem final0 (c : Dev nD) :
    (dat0 V c).arrAt 3 cfg0.N = rowsWeightBias (V c main_v18) (V c main_arg3) (V c main_v19) :=
  (dat0 V c).arrAt_eq_of_cover 3 _ (fun t _ => flushed0 V c t) cover0

end Cert.KernelIdeal.RegionValue

end
-- ==== Proof.KernelRegion1.lean ====
/-
  The second region's value. The region tiles the rows of a [100000, 128] array z into 20 blocks of 5000 rows; at
  point t its body takes block t of z, the whole scale row and shift row [1, 128], the whole weight [128, 128] and the
  whole bias row, forms a = max (z · scale + shift) 0 on the block and writes block t of the output: a times the
  weight plus the bias. An output entry in row r reads only row r of z, so what point t writes back is block t of the
  whole-array function  (r, q) ↦ ∑ₖ max (z(r,k) · s(0,k) + t(0,k)) 0 · w(k,q) + b(0,q), and the 20 blocks cover
  the array.
-/
import proofs.«165414_j20942260536132_1_alg».proof.Proof.Gen.KernelIdeal.Frame
import proofs.«165414_j20942260536132_1_alg».proof.Proof.LibDenseBnBodies

set_option maxRecDepth 16384

noncomputable section

namespace Cert.KernelIdeal.RegionValue

open Cert.KernelIdeal Cert.KernelIdeal.Gen
open Idealize.ShloMosaic Idealize.ShloMosaic.TcCoe Idealize.ShloMosaic.ValueIdx Idealize.SL.Sem
open Idealize.ShloMosaic.Pipeline (Dat Cfg Window)
open BatchNormAffine DenseBnBodies

variable (V : (c : Dev nD) → (b : Ref sig .tc) → Buf (Elt Ideal) ((c : Thread nD τ).loc b))

/-- The zero offset of a whole-buffer rectangle. -/
theorem zero_off1 : (![0, 0] : Fin 2 → Nat) = fun _ => 0 := funext fun a => by fin_cases a <;> rfl

/-- The second region's body: the rectified affine map of the row block, then rows times weight plus bias. -/
theorem pay1_eq (x : Vec Ideal S5000x128 .f32) (s u : Vec Ideal S1x128 .f32) (w : Vec Ideal S128x128 .f32)
    (b : Vec Ideal S1x128 .f32) :
    k1_pay1 x s u w b = rowsWeightBias (affineRelu 0x00000000#32 x s u) w b := by
  unfold k1_pay1
  dsimp only
  rw [affine_body 0x00000000#32 x s u _ _ _]
  exact dense_body dot_S5000x128_S128x128_S5000x128_1_0_0_1_n_n rfl _ w b _ _ _

/-- The printed index maps over the grid: the row windows move one block per point, the other four stay. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Every block of rows is some point's. -/
theorem idx_onto1 : ∀ q0 : Fin 20, ∃ t : Fin cfg1.N, win1_5.index t = ![q0.val, 0] :=
  (by decide +kernel : ∀ q0 : Fin 20, ∃ t : Fin grid1.N, win1_5.index t = ![q0.val, 0])

/-- What point t writes back is block t of the layer of the arrays as the region finds them. -/
theorem flushed1 (c : Dev nD) (t : Fin cfg1.N) :
    (dat1 V c).flushed 5 t = ((cfg1.win 5).blk t).view.read (Elt Ideal)
      (rowsWeightBias (affineRelu 0x00000000#32 (V c main_v20) (V c main_v37) (V c main_v38)) (V c main_arg7) (V c main_v39)) := by
  show (cfg1.win 5).cut (grid1.coords t) ((dat1 V c).after 5 t) = _
  rw [after1_5]
  unfold out1_5
  rw [View.canon_unit_zero zero_off1]
  simp only [View.ld_unit_zero (S := S5000x128) zero_off1, View.ld_unit_zero (S := S128x128) zero_off1,
    View.ld_unit_zero (S := S1x128) zero_off1]
  rw [pay1_eq]
  obtain ⟨e0, e1, e2, e3, e4, e5, e6, e7, e8, e9, e10, e11⟩ := idx_facts1 t
  refine funext fun (j : S5000x128.Idx) => ?_
  obtain ⟨y0, y1, rfl⟩ : ∃ (y0 : Fin 5000) (y1 : Fin 128), j = ix2 y0 y1 := ⟨j 0, j 1, eq_ix2 j⟩
  have ht : t.val < 20 := lt_of_lt_of_eq t.isLt (show cfg1.N = 20 from N_1)
  have hr : t.val * 5000 + y0.val < 100000 := by have := y0.isLt; omega
  have hout : ((cfg1.win 5).blk t).view.emb (ix2 y0 y1) = ix2 (⟨t.val * 5000 + y0.val, hr⟩ : Fin 100000) y1 := by
    funext a; apply Fin.ext
    match a with
    | ⟨0, _⟩ => show win1_5.index t (0 : Fin 2) * 5000 + 1 * y0.val = t.val * 5000 + y0.val; omega
    | ⟨1, _⟩ => show win1_5.index t (1 : Fin 2) * 128 + 1 * y1.val = y1.val; omega
  show rowsWeightBias (affineRelu 0x00000000#32 (iblk1 V c 0 t) (iblk1 V c 1 t) (iblk1 V c 2 t)) (iblk1 V c 3 t) (iblk1 V c 4 t) (ix2 y0 y1)
    = rowsWeightBias (affineRelu 0x00000000#32 (V c main_v20) (V c main_v37) (V c main_v38)) (V c main_arg7) (V c main_v39)
        (((cfg1.win 5).blk t).view.emb (ix2 y0 y1))
  rw [hout]
  refine rowsWeightBias_congr _ _ _ _ _ _ _ y0 y1 (fun k => ?_) (fun k => ?_) ?_
  · refine affineRelu_congr _ _ _ _ _ _ _ _ y0 k ?_ ?_ ?_
    · show V c main_v20 (((cfg1.win 0).blk t).view.emb (ix2 y0 k)) = V c main_v20 (ix2 _ k)
      refine congrArg (V c main_v20) ?_
      funext a; apply Fin.ext
      match a with
      | ⟨0, _⟩ => show win1_0.index t (0 : Fin 2) * 5000 + 1 * y0.val = t.val * 5000 + y0.val; omega
      | ⟨1, _⟩ => show win1_0.index t (1 : Fin 2) * 128 + 1 * k.val = k.val; omega
    · show V c main_v37 (((cfg1.win 1).blk t).view.emb (ix2 (0 : Fin 1) k)) = V c main_v37 (ix2 (0 : Fin 1) k)
      refine congrArg (V c main_v37) ?_
      funext a; apply Fin.ext
      match a with
      | ⟨0, _⟩ => show win1_1.index t (0 : Fin 2) * 1 + 1 * 0 = 0; omega
      | ⟨1, _⟩ => show win1_1.index t (1 : Fin 2) * 128 + 1 * k.val = k.val; omega
    · show V c main_v38 (((cfg1.win 2).blk t).view.emb (ix2 (0 : Fin 1) k)) = V c main_v38 (ix2 (0 : Fin 1) k)
      refine congrArg (V c main_v38) ?_
      funext a; apply Fin.ext
      match a with
      | ⟨0, _⟩ => show win1_2.index t (0 : Fin 2) * 1 + 1 * 0 = 0; omega
      | ⟨1, _⟩ => show win1_2.index t (1 : Fin 2) * 128 + 1 * k.val = k.val; omega
  · show V c main_arg7 (((cfg1.win 3).blk t).view.emb (ix2 k y1)) = V c main_arg7 (ix2 k y1)
    refine congrArg (V c main_arg7) ?_
    funext a; apply Fin.ext
    match a with
    | ⟨0, _⟩ => show win1_3.index t (0 : Fin 2) * 128 + 1 * k.val = k.val; omega
    | ⟨1, _⟩ => show win1_3.index t (1 : Fin 2) * 128 + 1 * y1.val = y1.val; omega
  · show V c main_v39 (((cfg1.win 4).blk t).view.emb (ix2 (0 : Fin 1) y1)) = V c main_v39 (ix2 (0 : Fin 1) y1)
    refine congrArg (V c main_v39) ?_
    funext a; apply Fin.ext
    match a with
    | ⟨0, _⟩ => show win1_4.index t (0 : Fin 2) * 1 + 1 * 0 = 0; omega
    | ⟨1, _⟩ => show win1_4.index t (1 : Fin 2) * 128 + 1 * y1.val = y1.val; omega

/-- An index of the output array is in point t's block iff each coordinate is in the block's range on its axis. -/
theorem mem_blk1 (t : Fin cfg1.N) (i : S100000x128.Idx) :
    i ∈ ((cfg1.win 5).blk t).view.set ↔ ∀ a : Fin 2, win1_5.index t a * S5000x128.size a ≤ (i a).val
      ∧ (i a).val < win1_5.index t a * S5000x128.size a + S5000x128.size a := by
  show i ∈ ((View.whole main_v40).slice (win1_5.rect t)).set ↔ _
  rw [View.set_slice_whole, Rect.mem_set_unit]
  exact Iff.rfl

/-- Every index of the output array lies in the block of the point its row selects. -/
theorem cover1 (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  obtain ⟨t, ht⟩ := idx_onto1 ⟨(i 0).val / 5000, by omega⟩
  have q0 : win1_5.index t (0 : Fin 2) = (i 0).val / 5000 := congrFun ht 0
  have q1 : win1_5.index t (1 : Fin 2) = 0 := congrFun ht 1
  refine ⟨t, flush1_5 t, ?_⟩
  rw [mem_blk1]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-- The second region's output array after the region: the layer of the arrays it finds. -/
theorem final1 (c : Dev nD) :
    (dat1 V c).arrAt 5 cfg1.N
      = rowsWeightBias (affineRelu 0x00000000#32 (V c main_v20) (V c main_v37) (V c main_v38)) (V c main_arg7) (V c main_v39) :=
  (dat1 V c).arrAt_eq_of_cover 5 _ (fun t _ => flushed1 V c t) cover1

end Cert.KernelIdeal.RegionValue

end
-- ==== Proof.KernelRegion2.lean ====
/-
  The third region's value. The region tiles the rows of a [100000, 128] array z into 20 blocks of 5000 rows; at point
  t its body takes block t of z, the whole scale row and the whole shift row [1, 128] and writes block t of the
  output: the maximum of z · scale + shift and zero. An output entry (r, q) reads entry (r, q) of z and entry q of the
  two rows, so what point t writes back is block t of the whole-array function
  (r, q) ↦ max (z(r,q) · s(0,q) + t(0,q)) 0, and the 20 blocks cover the array.
-/
import proofs.«165414_j20942260536132_1_alg».proof.Proof.Gen.KernelIdeal.Frame
import proofs.«165414_j20942260536132_1_alg».proof.Proof.LibDenseBnBodies

set_option maxRecDepth 16384

noncomputable section

namespace Cert.KernelIdeal.RegionValue

open Cert.KernelIdeal Cert.KernelIdeal.Gen
open Idealize.ShloMosaic Idealize.ShloMosaic.TcCoe Idealize.ShloMosaic.ValueIdx Idealize.SL.Sem
open Idealize.ShloMosaic.Pipeline (Dat Cfg Window)
open BatchNormAffine DenseBnBodies

variable (V : (c : Dev nD) → (b : Ref sig .tc) → Buf (Elt Ideal) ((c : Thread nD τ).loc b))

/-- The zero offset of a whole-buffer rectangle. -/
theorem zero_off2 : (![0, 0] : Fin 2 → Nat) = fun _ => 0 := funext fun a => by fin_cases a <;> rfl

/-- The third region's body is the affine map of its loaded blocks followed by the maximum with zero. -/
theorem pay2_eq (x : Vec Ideal S5000x128 .f32) (s u : Vec Ideal S1x128 .f32) :
    k2_pay1 x s u = affineRelu 0x00000000#32 x s u := by
  unfold k2_pay1
  exact affine_body 0x00000000#32 x s u _ _ _

/-- The printed index maps over the grid: the row windows move one block per point, the two rows stay. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Every block of rows is some point's. -/
theorem idx_onto2 : ∀ q0 : Fin 20, ∃ t : Fin cfg2.N, win2_3.index t = ![q0.val, 0] :=
  (by decide +kernel : ∀ q0 : Fin 20, ∃ t : Fin grid2.N, win2_3.index t = ![q0.val, 0])

/-- What point t writes back is block t of the rectified affine map of the arrays as the region finds them. -/
theorem flushed2 (c : Dev nD) (t : Fin cfg2.N) :
    (dat2 V c).flushed 3 t = ((cfg2.win 3).blk t).view.read (Elt Ideal)
      (affineRelu 0x00000000#32 (V c main_v40) (V c main_v57) (V c main_v58)) := by
  show (cfg2.win 3).cut (grid2.coords t) ((dat2 V c).after 3 t) = _
  rw [after2_3]
  unfold out2_3
  rw [View.canon_unit_zero zero_off2]
  simp only [View.ld_unit_zero (S := S5000x128) zero_off2, View.ld_unit_zero (S := S1x128) zero_off2]
  rw [pay2_eq]
  obtain ⟨e0, e1, e2, e3, e4, e5, e6, e7⟩ := idx_facts2 t
  refine funext fun (j : S5000x128.Idx) => ?_
  obtain ⟨y0, y1, rfl⟩ : ∃ (y0 : Fin 5000) (y1 : Fin 128), j = ix2 y0 y1 := ⟨j 0, j 1, eq_ix2 j⟩
  have ht : t.val < 20 := lt_of_lt_of_eq t.isLt (show cfg2.N = 20 from N_2)
  have hr : t.val * 5000 + y0.val < 100000 := by have := y0.isLt; omega
  have hout : ((cfg2.win 3).blk t).view.emb (ix2 y0 y1) = ix2 (⟨t.val * 5000 + y0.val, hr⟩ : Fin 100000) y1 := by
    funext a; apply Fin.ext
    match a with
    | ⟨0, _⟩ => show win2_3.index t (0 : Fin 2) * 5000 + 1 * y0.val = t.val * 5000 + y0.val; omega
    | ⟨1, _⟩ => show win2_3.index t (1 : Fin 2) * 128 + 1 * y1.val = y1.val; omega
  show affineRelu 0x00000000#32 (iblk2 V c 0 t) (iblk2 V c 1 t) (iblk2 V c 2 t) (ix2 y0 y1)
    = affineRelu 0x00000000#32 (V c main_v40) (V c main_v57) (V c main_v58) (((cfg2.win 3).blk t).view.emb (ix2 y0 y1))
  rw [hout]
  refine affineRelu_congr _ _ _ _ _ _ _ _ y0 y1 ?_ ?_ ?_
  · show V c main_v40 (((cfg2.win 0).blk t).view.emb (ix2 y0 y1)) = V c main_v40 (ix2 _ y1)
    refine congrArg (V c main_v40) ?_
    funext a; apply Fin.ext
    match a with
    | ⟨0, _⟩ => show win2_0.index t (0 : Fin 2) * 5000 + 1 * y0.val = t.val * 5000 + y0.val; omega
    | ⟨1, _⟩ => show win2_0.index t (1 : Fin 2) * 128 + 1 * y1.val = y1.val; omega
  · show V c main_v57 (((cfg2.win 1).blk t).view.emb (ix2 (0 : Fin 1) y1)) = V c main_v57 (ix2 (0 : Fin 1) y1)
    refine congrArg (V c main_v57) ?_
    funext a; apply Fin.ext
    match a with
    | ⟨0, _⟩ => show win2_1.index t (0 : Fin 2) * 1 + 1 * 0 = 0; omega
    | ⟨1, _⟩ => show win2_1.index t (1 : Fin 2) * 128 + 1 * y1.val = y1.val; omega
  · show V c main_v58 (((cfg2.win 2).blk t).view.emb (ix2 (0 : Fin 1) y1)) = V c main_v58 (ix2 (0 : Fin 1) y1)
    refine congrArg (V c main_v58) ?_
    funext a; apply Fin.ext
    match a with
    | ⟨0, _⟩ => show win2_2.index t (0 : Fin 2) * 1 + 1 * 0 = 0; omega
    | ⟨1, _⟩ => show win2_2.index t (1 : Fin 2) * 128 + 1 * y1.val = y1.val; omega

/-- An index of the output array is in point t's block iff each coordinate is in the block's range on its axis. -/
theorem mem_blk2 (t : Fin cfg2.N) (i : S100000x128.Idx) :
    i ∈ ((cfg2.win 3).blk t).view.set ↔ ∀ a : Fin 2, win2_3.index t a * S5000x128.size a ≤ (i a).val
      ∧ (i a).val < win2_3.index t a * S5000x128.size a + S5000x128.size a := by
  show i ∈ ((View.whole main_v59).slice (win2_3.rect t)).set ↔ _
  rw [View.set_slice_whole, Rect.mem_set_unit]
  exact Iff.rfl

/-- Every index of the output array lies in the block of the point its row selects. -/
theorem cover2 (i : S100000x128.Idx) :
    ∃ t : Fin cfg2.N, (cfg2.win 3).flush t = true ∧ i ∈ ((cfg2.win 3).blk t).view.set := by
  have hi0 : (i 0).val < 100000 := (i 0).isLt
  have hi1 : (i 1).val < 128 := (i 1).isLt
  obtain ⟨t, ht⟩ := idx_onto2 ⟨(i 0).val / 5000, by omega⟩
  have q0 : win2_3.index t (0 : Fin 2) = (i 0).val / 5000 := congrFun ht 0
  have q1 : win2_3.index t (1 : Fin 2) = 0 := congrFun ht 1
  refine ⟨t, flush2_3 t, ?_⟩
  rw [mem_blk2]
  intro a
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 128 ≤ (i 1).val ∧ (i 1).val < win2_3.index t (1 : Fin 2) * 128 + 128; omega

/-- The third region's output array after the region: the rectified affine map of the arrays it finds. -/
theorem final2 (c : Dev nD) :
    (dat2 V c).arrAt 3 cfg2.N = affineRelu 0x00000000#32 (V c main_v40) (V c main_v57) (V c main_v58) :=
  (dat2 V c).arrAt_eq_of_cover 3 _ (fun t _ => flushed2 V c t) cover2

end Cert.KernelIdeal.RegionValue

end
-- ==== Proof.LibDenseBnLayer.lean ====
/-
  A dense layer followed by batch normalisation over the rows and a rectifier, as one whole-array function, general
  in its extents:  layer X w b γ β  is the centred batch normalisation (with scale γ and shift β, the statistics taken
  over the M rows) of  Z = X · w + b  followed by the maximum with a constant. The folded spelling — Z times a scale
  row plus a shift row, the rows computed from Z's column statistics — equals it for real operands, and the layer of
  real operands is a real matrix, so layers can be stacked.
-/
import proofs.«165414_j20942260536132_1_alg».proof.Proof.LibDenseBnBodies

noncomputable section

namespace DenseBnLayer

open Idealize.ShloMosaic Idealize.ShloMosaic.ValueIdx RealArrays BatchNormAffine DenseBnBodies

/-- The shape facts of one layer with M rows and N output columns. -/
structure LayerFacts (M N : ℕ) : Prop where
  /-- the facts of the column statistics -/
  stat : StatFacts M N
  /-- a scalar spread to [M, N] -/
  zeroAll : (⟨0, ![]⟩ : Shape).BroadcastsInDim ⟨2, ![M, N]⟩ (![] : Fin 0 → Fin 2)
  /-- a vector [N] recast as the row [1, N] -/
  rowCast : (⟨1, ![N]⟩ : Shape).ShapeCasts ⟨2, ![1, N]⟩

section
variable {M K N : ℕ} (f : LayerFacts M N) (nw ew zw : BitVec 32)

/-- The pre-activation X · w + b, the bias vector laid as a row. -/
def preAct (X : FVec Ideal ⟨2, ![M, K]⟩ .f32) (w : FVec Ideal ⟨2, ![K, N]⟩ .f32) (b : FVec Ideal ⟨1, ![N]⟩ .f32) :
    FVec Ideal ⟨2, ![M, N]⟩ .f32 :=
  rowsWeightBias X w (shapeCast ⟨2, ![1, N]⟩ b f.rowCast)

/-- One layer: batch normalisation and rectifier of the pre-activation. -/
def layer (X : FVec Ideal ⟨2, ![M, K]⟩ .f32) (w : FVec Ideal ⟨2, ![K, N]⟩ .f32) (b γ β : FVec Ideal ⟨1, ![N]⟩ .f32) :
    FVec Ideal ⟨2, ![M, N]⟩ .f32 :=
  normRelu f.stat nw ew zw f.zeroAll (preAct f X w b) γ β

/-- The folded spelling of the activation of a pre-activation Z: Z times the scale row plus the shift row, rectified. -/
def foldedAct (Z : FVec Ideal ⟨2, ![M, N]⟩ .f32) (γ β : FVec Ideal ⟨1, ![N]⟩ .f32) : FVec Ideal ⟨2, ![M, N]⟩ .f32 :=
  affineRelu zw Z (shapeCast ⟨2, ![1, N]⟩ (scaleVec f.stat nw ew Z γ) f.rowCast)
    (shapeCast ⟨2, ![1, N]⟩ (shiftVec f.stat nw ew Z γ β) f.rowCast)

variable {nw ew zw}

theorem allReal_preAct {X : FVec Ideal ⟨2, ![M, K]⟩ .f32} {w : FVec Ideal ⟨2, ![K, N]⟩ .f32}
    {b : FVec Ideal ⟨1, ![N]⟩ .f32} (hX : AllReal X) (hw : AllReal w) (hb : AllReal b) : AllReal (preAct f X w b) :=
  allReal_rowsWeightBias hX hw (AllReal.shapeCast hb _)

/-- For real operands (positive n and ε) the folded activation of the pre-activation is the layer. -/
theorem foldedAct_preAct (hn : IsPos (Ideal.ofBits .f32 nw)) (he : IsPos (Ideal.ofBits .f32 ew))
    {X : FVec Ideal ⟨2, ![M, K]⟩ .f32} {w : FVec Ideal ⟨2, ![K, N]⟩ .f32} {b γ β : FVec Ideal ⟨1, ![N]⟩ .f32}
    (hX : AllReal X) (hw : AllReal w) (hb : AllReal b) (hγ : AllReal γ) (hβ : AllReal β) :
    foldedAct f nw ew zw (preAct f X w b) γ β = layer f nw ew zw X w b γ β :=
  affineRelu_eq_normRelu f.stat zw hn he f.zeroAll f.rowCast (allReal_preAct f hX hw hb) hγ hβ

/-- The layer of real operands (positive n and ε, a real rectifier constant) is a real matrix. -/
theorem allReal_layer (hn : IsPos (Ideal.ofBits .f32 nw)) (he : IsPos (Ideal.ofBits .f32 ew))
    (hzw : IsReal (Ideal.ofBits .f32 zw))
    {X : FVec Ideal ⟨2, ![M, K]⟩ .f32} {w : FVec Ideal ⟨2, ![K, N]⟩ .f32} {b γ β : FVec Ideal ⟨1, ![N]⟩ .f32}
    (hX : AllReal X) (hw : AllReal w) (hb : AllReal b) (hγ : AllReal γ) (hβ : AllReal β) :
    AllReal (layer f nw ew zw X w b γ β) :=
  allReal_normRelu f.stat zw hn he hzw f.zeroAll (allReal_preAct f hX hw hb) hγ hβ

end

end DenseBnLayer

end
-- ==== Proof.Words.lean ====
/-
  The float words the two programs spell, as the extended reals they denote: 100000.0 (the number of rows the
  statistics divide by) and the batch-norm ε are positive reals, 1.0 and 0.0 are reals. Only these facts are used:
  both programs spell the same words, so their exact values never meet.
-/
import Idealize.ShloMosaic.PureOps.Ideal
import Idealize.ShloMosaic.PureOps.Ideal.Laws
import proofs.«165414_j20942260536132_1_alg».proof.Proof.LibRealArrays

noncomputable section

namespace Cert.Words

open Idealize.ShloMosaic RealArrays

/-- The word 0x47C35000 is 100000. -/
theorem rows_word : Ideal.ofBits .f32 0x47C35000#32 = ((100000 : ℝ) : EReal) := by
  simp [Ideal.ofBits, Ideal.ieee, -EReal.coe_mul]; norm_num

/-- The word 0x3F800000 is 1. -/
theorem one_word : Ideal.ofBits .f32 0x3F800000#32 = ((1 : ℝ) : EReal) := by
  simp [Ideal.ofBits, Ideal.ieee, -EReal.coe_mul]; norm_num

/-- The word 0x3727C5AC is 10995116 · 2⁻⁴⁰, the float nearest 10⁻⁵. -/
theorem eps_word : Ideal.ofBits .f32 0x3727C5AC#32 = (((10995116 : ℝ) * (2 : ℝ) ^ (-40 : ℤ) : ℝ) : EReal) := by
  simp [Ideal.ofBits, Ideal.ieee, -EReal.coe_mul]

theorem rows_pos : IsPos (Ideal.ofBits .f32 0x47C35000#32) := ⟨100000, by norm_num, rows_word⟩

theorem eps_pos : IsPos (Ideal.ofBits .f32 0x3727C5AC#32) := ⟨(10995116 : ℝ) * (2 : ℝ) ^ (-40 : ℤ), by positivity, eps_word⟩

theorem one_real : IsReal (Ideal.ofBits .f32 0x3F800000#32) := ⟨1, one_word⟩

theorem zero_real : IsReal (Ideal.ofBits .f32 0x00000000#32) := by
  rw [Ideal.ofBits_zero_f32]; exact isReal_zero

end Cert.Words

end
-- ==== Proof.Spec.lean ====
/-
  The function both programs compute from the combined node features H = (1 + ε₀) · x + agg: two stacked layers, each a
  dense map followed by batch normalisation over the 100000 rows and a rectifier,
      out H = layer (layer H w₁ b₁ γ₁ β₁) w₂ b₂ γ₂ β₂ .
  The kernel writes each activation in the folded spelling (a scale row and a shift row computed between its regions);
  for real operands that is the same function, one layer after the other: the first layer's output is a real matrix, so
  the law applies again to the second.
-/
import proofs.«165414_j20942260536132_1_alg».proof.Proof.LibDenseBnLayer
import proofs.«165414_j20942260536132_1_alg».proof.Proof.Words

noncomputable section

namespace Cert.Spec

open Idealize.ShloMosaic RealArrays BatchNormAffine DenseBnLayer Cert.Words

/-- The shape facts of a layer of 100000 rows and 128 columns. -/
theorem lf : LayerFacts 100000 128 :=
  ⟨⟨by decide, by decide, by decide, by decide, by decide⟩, by decide, by decide⟩

/-- One layer at this program's words: rows 100000.0, ε the float nearest 10⁻⁵, the rectifier's zero. -/
abbrev layer1 (X : FVec Ideal ⟨2, ![100000, 128]⟩ .f32) (w : FVec Ideal ⟨2, ![128, 128]⟩ .f32)
    (b γ β : FVec Ideal ⟨1, ![128]⟩ .f32) : FVec Ideal ⟨2, ![100000, 128]⟩ .f32 :=
  layer lf 0x47C35000#32 0x3727C5AC#32 0x00000000#32 X w b γ β

/-- The folded activation at this program's words. -/
abbrev folded1 (Z : FVec Ideal ⟨2, ![100000, 128]⟩ .f32) (γ β : FVec Ideal ⟨1, ![128]⟩ .f32) :
    FVec Ideal ⟨2, ![100000, 128]⟩ .f32 :=
  foldedAct lf 0x47C35000#32 0x3727C5AC#32 0x00000000#32 Z γ β

/-- The two stacked layers. -/
def out (H : FVec Ideal ⟨2, ![100000, 128]⟩ .f32) (w1 : FVec Ideal ⟨2, ![128, 128]⟩ .f32)
    (b1 γ1 β1 : FVec Ideal ⟨1, ![128]⟩ .f32) (w2 : FVec Ideal ⟨2, ![128, 128]⟩ .f32)
    (b2 γ2 β2 : FVec Ideal ⟨1, ![128]⟩ .f32) : FVec Ideal ⟨2, ![100000, 128]⟩ .f32 :=
  layer1 (layer1 H w1 b1 γ1 β1) w2 b2 γ2 β2

/-- The kernel's spelling — each activation folded into a scale row and a shift row — is the two stacked layers, for
    real operands. -/
theorem folded_out {H : FVec Ideal ⟨2, ![100000, 128]⟩ .f32} {w1 w2 : FVec Ideal ⟨2, ![128, 128]⟩ .f32}
    {b1 γ1 β1 b2 γ2 β2 : FVec Ideal ⟨1, ![128]⟩ .f32} (hH : AllReal H) (hw1 : AllReal w1) (hb1 : AllReal b1)
    (hγ1 : AllReal γ1) (hβ1 : AllReal β1) (hw2 : AllReal w2) (hb2 : AllReal b2) (hγ2 : AllReal γ2) (hβ2 : AllReal β2) :
    folded1 (preAct lf (folded1 (preAct lf H w1 b1) γ1 β1) w2 b2) γ2 β2 = out H w1 b1 γ1 β1 w2 b2 γ2 β2 := by
  have h1 : folded1 (preAct lf H w1 b1) γ1 β1 = layer1 H w1 b1 γ1 β1 :=
    foldedAct_preAct lf rows_pos eps_pos hH hw1 hb1 hγ1 hβ1
  rw [h1]
  exact foldedAct_preAct lf rows_pos eps_pos (allReal_layer lf rows_pos eps_pos zero_real hH hw1 hb1 hγ1 hβ1) hw2 hb2 hγ2 hβ2

end Cert.Spec

end
-- ==== Proof.KernelValue.lean ====
/-
  The kernel's result as a function of its arguments. Walking the program's boundaries backwards: the result array is
  what the third region's write-backs leave, the rectified affine map of the second region's output Z₂ with the scale
  and shift rows the third stretch computes from Z₂'s column statistics and γ₂, β₂; Z₂ is what the second region
  leaves, the dense map (w₂, b₂) of the rectified affine map of the first region's output Z₁ with the rows the second
  stretch computes from Z₁, γ₁, β₁; and Z₁ is the dense map (w₁, b₁) of the array H the first stretch computes. An
  argument's buffer is written by no stretch and no region, so at every boundary it holds what it held at launch.
-/
import proofs.«165414_j20942260536132_1_alg».proof.Proof.Gen.KernelIdeal.Frame
import proofs.«165414_j20942260536132_1_alg».proof.Proof.KernelRegion0
import proofs.«165414_j20942260536132_1_alg».proof.Proof.KernelRegion1
import proofs.«165414_j20942260536132_1_alg».proof.Proof.KernelRegion2
import proofs.«165414_j20942260536132_1_alg».proof.Proof.Spec
import Idealize.ShloMosaic.Lib.StableHlo.Run

set_option maxRecDepth 16384

noncomputable section

namespace Cert.KernelIdeal.ValueChain

open Cert.KernelIdeal Cert.KernelIdeal.Gen Cert.KernelIdeal.RegionValue
open Idealize.ShloMosaic Idealize.ShloMosaic.TcCoe Idealize.ShloMosaic.ValueIdx Idealize.SL.Sem Idealize.ShloMosaic.StableHlo
open BatchNormAffine DenseBnBodies DenseBnLayer Cert.Spec

variable (m : (ℓ : Loc nD τ sig) → Buf (Elt Ideal) ℓ) (ρ : Dev nD → PrngReg)

/-! ## The arguments at the boundaries -/

theorem W1_arg3 (c : Dev nD) : W1 m ρ c (Proc.devRef .tc main_arg3) = m ((c : Thread nD τ).loc main_arg3) := by
  show StableHlo.after hostOps0 (W0 m ρ c) (Proc.devRef .tc main_arg3) = _
  dsimp only [hostOps0]; after_results
  try rfl

theorem W1_arg5 (c : Dev nD) : W1 m ρ c (Proc.devRef .tc main_arg5) = m ((c : Thread nD τ).loc main_arg5) := by
  show StableHlo.after hostOps0 (W0 m ρ c) (Proc.devRef .tc main_arg5) = _
  dsimp only [hostOps0]; after_results
  try rfl
theorem W2_arg5 (c : Dev nD) : W2 m ρ c (Proc.devRef .tc main_arg5) = m ((c : Thread nD τ).loc main_arg5) :=
  (W2_of_ne m ρ c main_arg5 (by decide)).trans (W1_arg5 m ρ c)

theorem W1_arg6 (c : Dev nD) : W1 m ρ c (Proc.devRef .tc main_arg6) = m ((c : Thread nD τ).loc main_arg6) := by
  show StableHlo.after hostOps0 (W0 m ρ c) (Proc.devRef .tc main_arg6) = _
  dsimp only [hostOps0]; after_results
  try rfl
theorem W2_arg6 (c : Dev nD) : W2 m ρ c (Proc.devRef .tc main_arg6) = m ((c : Thread nD τ).loc main_arg6) :=
  (W2_of_ne m ρ c main_arg6 (by decide)).trans (W1_arg6 m ρ c)

theorem W1_arg7 (c : Dev nD) : W1 m ρ c (Proc.devRef .tc main_arg7) = m ((c : Thread nD τ).loc main_arg7) := by
  show StableHlo.after hostOps0 (W0 m ρ c) (Proc.devRef .tc main_arg7) = _
  dsimp only [hostOps0]; after_results
  try rfl
theorem W2_arg7 (c : Dev nD) : W2 m ρ c (Proc.devRef .tc main_arg7) = m ((c : Thread nD τ).loc main_arg7) :=
  (W2_of_ne m ρ c main_arg7 (by decide)).trans (W1_arg7 m ρ c)

theorem W1_arg8 (c : Dev nD) : W1 m ρ c (Proc.devRef .tc main_arg8) = m ((c : Thread nD τ).loc main_arg8) := by
  show StableHlo.after hostOps0 (W0 m ρ c) (Proc.devRef .tc main_arg8) = _
  dsimp only [hostOps0]; after_results
  try rfl
theorem W2_arg8 (c : Dev nD) : W2 m ρ c (Proc.devRef .tc main_arg8) = m ((c : Thread nD τ).loc main_arg8) :=
  (W2_of_ne m ρ c main_arg8 (by decide)).trans (W1_arg8 m ρ c)

theorem W1_arg9 (c : Dev nD) : W1 m ρ c (Proc.devRef .tc main_arg9) = m ((c : Thread nD τ).loc main_arg9) := by
  show StableHlo.after hostOps0 (W0 m ρ c) (Proc.devRef .tc main_arg9) = _
  dsimp only [hostOps0]; after_results
  try rfl
theorem W2_arg9 (c : Dev nD) : W2 m ρ c (Proc.devRef .tc main_arg9) = m ((c : Thread nD τ).loc main_arg9) :=
  (W2_of_ne m ρ c main_arg9 (by decide)).trans (W1_arg9 m ρ c)

theorem W1_arg10 (c : Dev nD) : W1 m ρ c (Proc.devRef .tc main_arg10) = m ((c : Thread nD τ).loc main_arg10) := by
  show StableHlo.after hostOps0 (W0 m ρ c) (Proc.devRef .tc main_arg10) = _
  dsimp only [hostOps0]; after_results
  try rfl
theorem W2_arg10 (c : Dev nD) : W2 m ρ c (Proc.devRef .tc main_arg10) = m ((c : Thread nD τ).loc main_arg10) :=
  (W2_of_ne m ρ c main_arg10 (by decide)).trans (W1_arg10 m ρ c)

theorem W3_arg7 (c : Dev nD) : W3 m ρ c (Proc.devRef .tc main_arg7) = m ((c : Thread nD τ).loc main_arg7) := by
  refine Eq.trans ?_ (W2_arg7 m ρ c)
  show StableHlo.after hostOps1 (W2 m ρ c) (Proc.devRef .tc main_arg7) = _
  dsimp only [hostOps1]; after_results
  try rfl

theorem W3_arg9 (c : Dev nD) : W3 m ρ c (Proc.devRef .tc main_arg9) = m ((c : Thread nD τ).loc main_arg9) := by
  refine Eq.trans ?_ (W2_arg9 m ρ c)
  show StableHlo.after hostOps1 (W2 m ρ c) (Proc.devRef .tc main_arg9) = _
  dsimp only [hostOps1]; after_results
  try rfl
theorem W4_arg9 (c : Dev nD) : W4 m ρ c (Proc.devRef .tc main_arg9) = m ((c : Thread nD τ).loc main_arg9) :=
  (W4_of_ne m ρ c main_arg9 (by decide)).trans (W3_arg9 m ρ c)

theorem W3_arg10 (c : Dev nD) : W3 m ρ c (Proc.devRef .tc main_arg10) = m ((c : Thread nD τ).loc main_arg10) := by
  refine Eq.trans ?_ (W2_arg10 m ρ c)
  show StableHlo.after hostOps1 (W2 m ρ c) (Proc.devRef .tc main_arg10) = _
  dsimp only [hostOps1]; after_results
  try rfl
theorem W4_arg10 (c : Dev nD) : W4 m ρ c (Proc.devRef .tc main_arg10) = m ((c : Thread nD τ).loc main_arg10) :=
  (W4_of_ne m ρ c main_arg10 (by decide)).trans (W3_arg10 m ρ c)

/-! ## The first region: Z₁ -/

/-- The combined features H as the first stretch leaves them. -/
abbrev H (c : Dev nD) : FVec Ideal ⟨2, ![100000, 128]⟩ .f32 := V1 m ρ c main_v18

/-- The first region's output. -/
def Z1 (c : Dev nD) : FVec Ideal ⟨2, ![100000, 128]⟩ .f32 :=
  preAct lf (H m ρ c) (m ((c : Thread nD τ).loc main_arg3)) (m ((c : Thread nD τ).loc main_arg4))

theorem V1_v19 (c : Dev nD) :
    V1 m ρ c main_v19 = shapeCast ⟨2, ![1, 128]⟩ (m ((c : Thread nD τ).loc main_arg4)) lf.rowCast := by
  show StableHlo.after hostOps0 (W0 m ρ c) (Proc.devRef .tc main_v19) = _
  dsimp only [hostOps0]; after_results
  try rfl

theorem W2_v20 (c : Dev nD) : W2 m ρ c (Proc.devRef .tc main_v20) = Z1 m ρ c := by
  refine (W2_arr m ρ c 3).trans ?_
  rw [final0 (V1 m ρ) c, V1_v19]
  show rowsWeightBias (V1 m ρ c main_v18) (W1 m ρ c (Proc.devRef .tc main_arg3)) _ = _
  rw [W1_arg3]
  rfl

/-! ## The second stretch and region: the rows from Z₁, and Z₂ -/

theorem V3_v20 (c : Dev nD) : V3 m ρ c main_v20 = Z1 m ρ c := by
  refine Eq.trans ?_ (W2_v20 m ρ c)
  show StableHlo.after hostOps1 (W2 m ρ c) (Proc.devRef .tc main_v20) = _
  dsimp only [hostOps1]; after_results
  try rfl

set_option maxHeartbeats 4000000 in
theorem V3_v37 (c : Dev nD) : V3 m ρ c main_v37 = shapeCast ⟨2, ![1, 128]⟩
    (scaleVec lf.stat 0x47C35000#32 0x3727C5AC#32 (Z1 m ρ c) (m ((c : Thread nD τ).loc main_arg5))) lf.rowCast := by
  have h : V3 m ρ c main_v37 = shapeCast ⟨2, ![1, 128]⟩ (scaleVec lf.stat 0x47C35000#32 0x3727C5AC#32
      (W2 m ρ c (Proc.devRef .tc main_v20)) (W2 m ρ c (Proc.devRef .tc main_arg5))) lf.rowCast := by
    show StableHlo.after hostOps1 (W2 m ρ c) (Proc.devRef .tc main_v37) = _
    dsimp only [hostOps1]; after_results_simp
    try rfl
  rw [h, W2_v20, W2_arg5]

set_option maxHeartbeats 4000000 in
theorem V3_v38 (c : Dev nD) : V3 m ρ c main_v38 = shapeCast ⟨2, ![1, 128]⟩
    (shiftVec lf.stat 0x47C35000#32 0x3727C5AC#32 (Z1 m ρ c) (m ((c : Thread nD τ).loc main_arg5))
      (m ((c : Thread nD τ).loc main_arg6))) lf.rowCast := by
  have h : V3 m ρ c main_v38 = shapeCast ⟨2, ![1, 128]⟩ (shiftVec lf.stat 0x47C35000#32 0x3727C5AC#32
      (W2 m ρ c (Proc.devRef .tc main_v20)) (W2 m ρ c (Proc.devRef .tc main_arg5))
      (W2 m ρ c (Proc.devRef .tc main_arg6))) lf.rowCast := by
    show StableHlo.after hostOps1 (W2 m ρ c) (Proc.devRef .tc main_v38) = _
    dsimp only [hostOps1]; after_results_simp
    try rfl
  rw [h, W2_v20, W2_arg5, W2_arg6]

theorem V3_v39 (c : Dev nD) :
    V3 m ρ c main_v39 = shapeCast ⟨2, ![1, 128]⟩ (m ((c : Thread nD τ).loc main_arg8)) lf.rowCast := by
  have h : V3 m ρ c main_v39 = shapeCast ⟨2, ![1, 128]⟩ (W2 m ρ c (Proc.devRef .tc main_arg8)) lf.rowCast := by
    show StableHlo.after hostOps1 (W2 m ρ c) (Proc.devRef .tc main_v39) = _
    dsimp only [hostOps1]; after_results
    try rfl
  rw [h, W2_arg8]

/-- The second region's output. -/
def Z2 (c : Dev nD) : FVec Ideal ⟨2, ![100000, 128]⟩ .f32 :=
  preAct lf (folded1 (Z1 m ρ c) (m ((c : Thread nD τ).loc main_arg5)) (m ((c : Thread nD τ).loc main_arg6)))
    (m ((c : Thread nD τ).loc main_arg7)) (m ((c : Thread nD τ).loc main_arg8))

theorem W4_v40 (c : Dev nD) : W4 m ρ c (Proc.devRef .tc main_v40) = Z2 m ρ c := by
  refine (W4_arr m ρ c 5).trans ?_
  rw [final1 (V3 m ρ) c, V3_v20, V3_v37, V3_v38, V3_v39]
  show rowsWeightBias _ (W3 m ρ c (Proc.devRef .tc main_arg7)) _ = _
  rw [W3_arg7]
  rfl

/-! ## The third stretch and region: the rows from Z₂, and the result -/

theorem V5_v40 (c : Dev nD) : V5 m ρ c main_v40 = Z2 m ρ c := by
  refine Eq.trans ?_ (W4_v40 m ρ c)
  show StableHlo.after hostOps2 (W4 m ρ c) (Proc.devRef .tc main_v40) = _
  dsimp only [hostOps2]; after_results
  try rfl

set_option maxHeartbeats 4000000 in
theorem V5_v57 (c : Dev nD) : V5 m ρ c main_v57 = shapeCast ⟨2, ![1, 128]⟩
    (scaleVec lf.stat 0x47C35000#32 0x3727C5AC#32 (Z2 m ρ c) (m ((c : Thread nD τ).loc main_arg9))) lf.rowCast := by
  have h : V5 m ρ c main_v57 = shapeCast ⟨2, ![1, 128]⟩ (scaleVec lf.stat 0x47C35000#32 0x3727C5AC#32
      (W4 m ρ c (Proc.devRef .tc main_v40)) (W4 m ρ c (Proc.devRef .tc main_arg9))) lf.rowCast := by
    show StableHlo.after hostOps2 (W4 m ρ c) (Proc.devRef .tc main_v57) = _
    dsimp only [hostOps2]; after_results_simp
    try rfl
  rw [h, W4_v40, W4_arg9]

set_option maxHeartbeats 4000000 in
theorem V5_v58 (c : Dev nD) : V5 m ρ c main_v58 = shapeCast ⟨2, ![1, 128]⟩
    (shiftVec lf.stat 0x47C35000#32 0x3727C5AC#32 (Z2 m ρ c) (m ((c : Thread nD τ).loc main_arg9))
      (m ((c : Thread nD τ).loc main_arg10))) lf.rowCast := by
  have h : V5 m ρ c main_v58 = shapeCast ⟨2, ![1, 128]⟩ (shiftVec lf.stat 0x47C35000#32 0x3727C5AC#32
      (W4 m ρ c (Proc.devRef .tc main_v40)) (W4 m ρ c (Proc.devRef .tc main_arg9))
      (W4 m ρ c (Proc.devRef .tc main_arg10))) lf.rowCast := by
    show StableHlo.after hostOps2 (W4 m ρ c) (Proc.devRef .tc main_v58) = _
    dsimp only [hostOps2]; after_results_simp
    try rfl
  rw [h, W4_v40, W4_arg9, W4_arg10]

/-- THE KERNEL'S RESULT: the folded spelling of the two layers of H and the eight parameter arrays. -/
theorem result_eq (c : Dev nD) : W6 m ρ c (Proc.devRef .tc main_v59)
    = folded1 (preAct lf (folded1 (preAct lf (H m ρ c) (m ((c : Thread nD τ).loc main_arg3))
          (m ((c : Thread nD τ).loc main_arg4))) (m ((c : Thread nD τ).loc main_arg5)) (m ((c : Thread nD τ).loc main_arg6)))
        (m ((c : Thread nD τ).loc main_arg7)) (m ((c : Thread nD τ).loc main_arg8)))
      (m ((c : Thread nD τ).loc main_arg9)) (m ((c : Thread nD τ).loc main_arg10)) := by
  refine (W6_arr m ρ c 3).trans ?_
  rw [final2 (V5 m ρ) c, V5_v40, V5_v57, V5_v58]
  rfl

end Cert.KernelIdeal.ValueChain

end
-- ==== Proof.LibHostRowsWeightBias.lean ====
/-
  Rows times a weight plus a bias, as a host program writes it. jnp's  x @ W + b  is a dot_general of the rows
  [M, K] and the weight [K, N], plus the bias vector [N] placed on axis 1 of a [1, N] array and then broadcast on both
  axes to [M, N]. Entry (p, q) of that is ∑ₖ x(p, k) · W(k, q) + b(q): rows times the weight plus the one-row bias
  whose row is the vector b.
-/
import Idealize.ShloMosaic.Lib.Pipeline.Value
import Idealize.ShloMosaic.Lib.ValueIdx
import Idealize.ShloMosaic.Lib.ValueLayout
import Idealize.ShloMosaic.Lib.KernelVsHost
import proofs.«165414_j20942260536132_1_alg».proof.Proof.LibPlainDot
import proofs.«165414_j20942260536132_1_alg».proof.Proof.LibPaddedRows

namespace Idealize.ShloMosaic.ValueIdx

open Idealize.ShloMosaic

/-- Rows times a weight plus the one-row bias whose row is the vector b is the host's dot_general plus b broadcast
    over the rows. -/
theorem rowsWeightBias_eq_host {M K N : ℕ} (d : DotDims ⟨2, ![M, K]⟩ ⟨2, ![K, N]⟩ ⟨2, ![M, N]⟩)
    (hd : d = DotDims.plain M K N)
    (x : FVec Ideal ⟨2, ![M, K]⟩ .f32) (w : FVec Ideal ⟨2, ![K, N]⟩ .f32) (bvec : FVec Ideal ⟨1, ![N]⟩ .f32)
    (h1 : (⟨1, ![N]⟩ : Shape).ShapeCasts ⟨2, ![1, N]⟩)
    (hr : (⟨1, ![N]⟩ : Shape).BroadcastsInDim ⟨2, ![1, N]⟩ ![1])
    (hbc : (⟨2, ![1, N]⟩ : Shape).BroadcastsInDim ⟨2, ![M, N]⟩ ![0, 1]) :
    rowsWeightBias x w (shapeCast ⟨2, ![1, N]⟩ bvec h1)
      = addf (Host.dotGeneral d none x w)
          (broadcastInDim ⟨2, ![M, N]⟩ ![0, 1] hbc (broadcastInDim ⟨2, ![1, N]⟩ ![1] hr bvec)) := by
  funext i
  obtain ⟨p, q, rfl⟩ : ∃ (p : Fin M) (q : Fin N), i = ix2 p q := ⟨i 0, i 1, eq_ix2 i⟩
  show (∑ k : Fin K, x (ix2 p k) * w (ix2 k q)) + shapeCast ⟨2, ![1, N]⟩ bvec h1 (ix2 (0 : Fin 1) q) = _
  rw [addf_apply, broadcastInDim_oneRow_apply, shapeCast_a_1a_apply]
  have hb : broadcastInDim ⟨2, ![1, N]⟩ ![1] hr bvec (ix2 (0 : Fin 1) q) = bvec (ix1 q) := by
    refine broadcastInDim_apply ![1] hr bvec (ix2 (0 : Fin 1) q) (ix1 q) fun a => ?_
    match a with
    | ⟨0, _⟩ =>
      show q.val = if N = 1 then 0 else q.val
      split
      · have := q.isLt; omega
      · rfl
  rw [hb]
  refine congrArg (· + bvec (ix1 q)) ?_
  simp only [Host.dotGeneral]
  exact (dotGeneral_plain_apply d hd none _ x w p q).symm

end Idealize.ShloMosaic.ValueIdx
-- ==== Proof.RefValue.lean ====
/-
  The reference's result as the two stacked layers of its combined features H. Read one operation at a time the
  reference is, twice over: a dot_general plus the bias vector spread over the rows (the dense map); the column means,
  the variances of the centred entries, the reciprocal deviations; the centred entries times the reciprocal deviation
  times γ plus β; and the maximum with a zero array (the outlined relu). That is the layer of the specification word for
  word, so the equalities here unfold definitions and use no arithmetic. H itself — (1 + ε₀) · x plus the sum over
  incoming edges of the gathered rows — is a real array when x and ε₀ are.
-/
import proofs.«165414_j20942260536132_1_alg».proof.Proof.Gen.ReferenceIdeal.Read
import proofs.«165414_j20942260536132_1_alg».proof.Proof.Spec
import proofs.«165414_j20942260536132_1_alg».proof.Proof.LibHostRowsWeightBias

set_option maxRecDepth 16384

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx RealArrays BatchNormAffine DenseBnLayer
open Cert.Spec Cert.Words

variable (x0 : (⟨S100000x128, .f32⟩ : BufTy).Contents (Elt Ideal)) (x1 : (⟨S2x640000, .i32⟩ : BufTy).Contents (Elt Ideal)) (x2 : (⟨S1, .f32⟩ : BufTy).Contents (Elt Ideal))
    (x3 : (⟨S128x128, .f32⟩ : BufTy).Contents (Elt Ideal)) (x4 x5 x6 : (⟨S128, .f32⟩ : BufTy).Contents (Elt Ideal)) (x7 : (⟨S128x128, .f32⟩ : BufTy).Contents (Elt Ideal)) (x8 x9 x10 : (⟨S128, .f32⟩ : BufTy).Contents (Elt Ideal))

/-- The reference's combined features. -/
abbrev Href : FVec Ideal ⟨2, ![100000, 128]⟩ .f32 := val_main_v19 (F := Ideal) x0 x1 x2

/-- The first pre-activation: the dot_general plus the spread bias is the dense map of H. -/
theorem z1_eq : val_main_v23 (F := Ideal) x0 x1 x2 x3 x4 = preAct lf (Href x0 x1 x2) x3 x4 := by
  unfold val_main_v23 val_main_v20 val_main_v22 val_main_v21
  exact (rowsWeightBias_eq_host dot_S100000x128_S128x128_S100000x128_1_0_0_1_n_n rfl (Href x0 x1 x2) x3 x4 lf.rowCast
    bcast_S128_S1x128_1 bcast_S1x128_S100000x128_0_1).symm

/-- The first activation is the first layer of H. -/
theorem a1_eq : val_main_v49 (F := Ideal) x0 x1 x2 x3 x4 x5 x6 = layer1 (Href x0 x1 x2) x3 x4 x5 x6 := by
  have h : val_main_v49 (F := Ideal) x0 x1 x2 x3 x4 x5 x6
      = normRelu lf.stat 0x47C35000#32 0x3727C5AC#32 0x00000000#32 lf.zeroAll (val_main_v23 (F := Ideal) x0 x1 x2 x3 x4) x5 x6 := by
    unfold val_main_v49 val_main_v48 val_main_v47 val_main_v46 val_main_v45 val_main_v44 val_main_v43 val_main_v42 val_main_v41 val_main_v40 val_main_v39 val_main_v38 val_main_v37 val_main_cst_6 val_main_v36 val_main_v35 val_main_v34 val_main_v33 val_main_v32 val_main_cst_5 val_main_v31 val_main_cst_4 val_main_v30 val_main_v29 val_main_v28 val_main_v27 val_main_v26 val_main_v25 val_main_cst_3 val_main_v24 val_main_cst_2 val_main_call0_v0 val_main_call0_cst
    rfl
  rw [h, z1_eq]
  rfl

/-- The second pre-activation is the dense map of the first activation. -/
theorem z2_eq : val_main_v53 (F := Ideal) x0 x1 x2 x3 x4 x5 x6 x7 x8
    = preAct lf (val_main_v49 (F := Ideal) x0 x1 x2 x3 x4 x5 x6) x7 x8 := by
  unfold val_main_v53 val_main_v50 val_main_v52 val_main_v51
  exact (rowsWeightBias_eq_host dot_S100000x128_S128x128_S100000x128_1_0_0_1_n_n rfl
    (val_main_v49 (F := Ideal) x0 x1 x2 x3 x4 x5 x6) x7 x8 lf.rowCast bcast_S128_S1x128_1 bcast_S1x128_S100000x128_0_1).symm

/-- THE REFERENCE'S RESULT: the two stacked layers of its H. -/
theorem out_eq : val_main_v79 (F := Ideal) x0 x1 x2 x3 x4 x5 x6 x7 x8 x9 x10
    = out (Href x0 x1 x2) x3 x4 x5 x6 x7 x8 x9 x10 := by
  have h : val_main_v79 (F := Ideal) x0 x1 x2 x3 x4 x5 x6 x7 x8 x9 x10
      = normRelu lf.stat 0x47C35000#32 0x3727C5AC#32 0x00000000#32 lf.zeroAll (val_main_v53 (F := Ideal) x0 x1 x2 x3 x4 x5 x6 x7 x8) x9 x10 := by
    unfold val_main_v79 val_main_v78 val_main_v77 val_main_v76 val_main_v75 val_main_v74 val_main_v73 val_main_v72 val_main_v71 val_main_v70 val_main_v69 val_main_v68 val_main_v67 val_main_cst_11 val_main_v66 val_main_v65 val_main_v64 val_main_v63 val_main_v62 val_main_cst_10 val_main_v61 val_main_cst_9 val_main_v60 val_main_v59 val_main_v58 val_main_v57 val_main_v56 val_main_v55 val_main_cst_8 val_main_v54 val_main_cst_7 val_main_call1_v0 val_main_call1_cst
    rfl
  rw [h, z2_eq, a1_eq]
  rfl

/-- H is a real array when x and ε₀ are: a real multiple of x plus a finite sum of rows of x. -/
theorem allReal_Href (h0 : AllReal x0) (h2 : AllReal x2) : AllReal (Href x0 x1 x2) := by
  unfold Href val_main_v19 val_main_v18 val_main_v17 val_main_v16 val_main_v15 val_main_v14 val_main_cst_1 val_main_v13
    val_main_v11 val_main_cst val_main_v10
  exact AllReal.addf
    (AllReal.mulf (AllReal.broadcastInDim (AllReal.broadcastInDim
      (AllReal.addf (AllReal.broadcastInDim (fun _ => one_real) _ _) h2) _ _) _ _) h0)
    (AllReal.hostScatterAdd _ _ (AllReal.broadcastInDim (fun _ => zero_real) _ _) (AllReal.hostGather h0 _ _))

end Cert.ReferenceIdeal.RefValue

end
-- ==== Proof.LibFiniteEntries.lean ====
/-
  Entries of finite magnitude are real numbers. An extended real x whose magnitude max x (−x) is strictly below +∞
  is neither +∞ nor −∞, so it is a real number. A precondition that says this of every entry of an array — the
  conjunction, over all entries, of the comparison |x| < +∞ — therefore makes every entry of the array real.
-/
import Idealize.ShloMosaic.PureOps.Ideal.Laws
import Idealize.ShloMosaic.Lib.ValueIdx
import Idealize.ShloMosaic.Lib.ReduceAll

namespace Idealize.ShloMosaic.FiniteEntries

open Idealize.ShloMosaic

/-- The word 0x7F800000 is +∞. -/
theorem ofBits_inf_f32 : Ideal.ofBits .f32 0x7F800000#32 = (⊤ : EReal) := by
  simp [Ideal.ofBits, Ideal.ieee]

/-- An extended real whose magnitude is strictly below +∞ is a real number. -/
theorem real_of_abs_lt_top (x : EReal) (h : max x (-x) < ⊤) : ∃ r : ℝ, x = (r : EReal) := by
  induction x using EReal.rec with
  | bot => exact absurd h (by simp)
  | top => exact absurd h (by simp)
  | coe r => exact ⟨r, rfl⟩

/-- The comparison bit of |x| < +∞ being one makes x real. -/
theorem real_of_cmp (x : EReal)
    (h : FloatOps.cmpf (F := Ideal) (φ := .f32) .olt (FloatOps.hostAbsf (F := Ideal) (φ := .f32) x) (Ideal.ofBits .f32 0x7F800000#32) = 1#1) :
    ∃ r : ℝ, x = (r : EReal) := by
  rw [ofBits_inf_f32] at h
  refine real_of_abs_lt_top x ?_
  have h' : Ideal.cmp .olt (max x (-x)) ⊤ = 1#1 := h
  unfold Ideal.cmp at h'
  by_contra hlt
  simp [hlt] at h'

end Idealize.ShloMosaic.FiniteEntries
-- ==== Proof.Finite.lean ====
/-
  The precondition read back. It is the conjunction, over the ten float arguments, of "every entry has magnitude
  strictly below +∞", each conjunct a reduction by `and` of the comparison bits over the whole array. The
  conjunction being one makes every conjunct one; a reduction by `and` that is one met only ones; and an entry whose
  comparison bit is one is neither infinity, that is, a real number. So every float argument is a real array.
-/
import proofs.«165414_j20942260536132_1_alg».proof.Pre_finite_inputs
import Idealize.ShloMosaic.Lib.ReduceAll
import proofs.«165414_j20942260536132_1_alg».proof.Proof.LibFiniteEntries
import proofs.«165414_j20942260536132_1_alg».proof.Proof.LibRealArrays

noncomputable section

namespace Cert.Finite

open Idealize.ShloMosaic Idealize.ShloMosaic.ValueIdx Idealize.ShloMosaic.FiniteEntries RealArrays

/-- The scalar shape has one index. -/
instance : Subsingleton (⟨0, ![]⟩ : Shape).Idx := ⟨fun a b => funext fun d => d.elim0⟩

/-- One conjunct: if the reduction by `and` of |x| < +∞ over all of x is one, x is a real array. -/
theorem allReal_of_all {s : Shape} {axes : List (Fin s.rank)} (x : FVec Ideal s .f32)
    (hred : s.ReducesTo axes ⟨0, ![]⟩) (hu : 0 < (⟨0, ![]⟩ : Shape).numel)
    (hb : (⟨0, ![]⟩ : Shape).BroadcastsInDim s (![] : Fin 0 → Fin s.rank))
    (e : Host.reduce IntOp.andi
      (cmpf .olt (Host.absf x) (broadcastInDim s ![] hb (constant (F := Ideal) ⟨0, ![]⟩ .f32 0x7F800000#32)))
      (constantI ⟨0, ![]⟩ 1 1#1) hred hu ix0 = 1#1) : AllReal x := fun i =>
  real_of_cmp (x i) (Host.reduce_andi_all _ _ hred hu ix0 e i)

open Cert.Pre_finite_inputs in
/-- The precondition makes each of the ten float arguments a real array. -/
theorem args_real [Cert.Pre_finite_inputs.Facts] (a0 : FVec Ideal S100000x128 .f32) (a1 : IVec S2x640000 32)
    (a2 : FVec Ideal S1 .f32) (a3 : FVec Ideal S128x128 .f32) (a4 a5 a6 : FVec Ideal S128 .f32)
    (a7 : FVec Ideal S128x128 .f32) (a8 a9 a10 : FVec Ideal S128 .f32)
    (h : fn (F := Ideal) a0 a1 a2 a3 a4 a5 a6 a7 a8 a9 a10 = fun _ => 1#1) :
    AllReal a0 ∧ AllReal a2 ∧ AllReal a3 ∧ AllReal a4 ∧ AllReal a5 ∧ AllReal a6 ∧ AllReal a7 ∧ AllReal a8
      ∧ AllReal a9 ∧ AllReal a10 := by
  have h0 := congrFun h ix0
  dsimp only [fn, fn_part1, fn_part2] at h0
  obtain ⟨h9, e10⟩ := IntOp.andi_eq_one.1 h0
  obtain ⟨h8, e9⟩ := IntOp.andi_eq_one.1 h9
  obtain ⟨h7, e8⟩ := IntOp.andi_eq_one.1 h8
  obtain ⟨h6, e7⟩ := IntOp.andi_eq_one.1 h7
  obtain ⟨h5, e6⟩ := IntOp.andi_eq_one.1 h6
  obtain ⟨h4, e5⟩ := IntOp.andi_eq_one.1 h5
  obtain ⟨h3, e4⟩ := IntOp.andi_eq_one.1 h4
  obtain ⟨h2, e3⟩ := IntOp.andi_eq_one.1 h3
  obtain ⟨e0, e2⟩ := IntOp.andi_eq_one.1 h2
  exact ⟨allReal_of_all a0 _ _ _ e0, allReal_of_all a2 _ _ _ e2, allReal_of_all a3 _ _ _ e3, allReal_of_all a4 _ _ _ e4,
    allReal_of_all a5 _ _ _ e5, allReal_of_all a6 _ _ _ e6, allReal_of_all a7 _ _ _ e7, allReal_of_all a8 _ _ _ e8,
    allReal_of_all a9 _ _ _ e9, allReal_of_all a10 _ _ _ e10⟩

end Cert.Finite

end
-- ==== Proof.Bridge.lean ====
/-
  The two programs compute one function. Both start from the same combined features H = (1 + ε₀) · x + agg: the
  gather of neighbour rows and the accumulating scatter are the same operations on the same arguments, and the factor
  1 + ε₀ reaches every entry either as a scalar splat (the kernel's host code reshapes ε to a scalar first) or as a
  [1] vector spread through [1, 1] (the reference), the same number at every entry. From H on, the kernel's result is
  the folded spelling of the two stacked layers and the reference's is the centred spelling; for finite inputs they
  agree (the precondition makes every float argument a real array, hence H).
-/
import proofs.«165414_j20942260536132_1_alg».proof.Defs
import proofs.«165414_j20942260536132_1_alg».proof.Proof.KernelRun
import proofs.«165414_j20942260536132_1_alg».proof.Proof.KernelValue
import proofs.«165414_j20942260536132_1_alg».proof.Proof.RefValue
import proofs.«165414_j20942260536132_1_alg».proof.Proof.Finite
import proofs.«165414_j20942260536132_1_alg».proof.Proof.Gen.Pre_finite_inputs
import Idealize.ShloMosaic.Lib.StableHlo.Run

set_option maxRecDepth 16384

noncomputable section

namespace Cert.Bridge

open Idealize.ShloMosaic Idealize.ShloMosaic.TcCoe Idealize.ShloMosaic.ValueIdx Idealize.SL.Sem Idealize.ShloMosaic.StableHlo
open RealArrays

set_option maxHeartbeats 4000000 in
/-- The kernel's H, as its first stretch leaves it, is the reference's H of the same arguments. -/
theorem H_eq (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    Cert.KernelIdeal.ValueChain.H m ρ c
      = Cert.ReferenceIdeal.RefValue.Href (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) := by
  show StableHlo.after Cert.KernelIdeal.Gen.hostOps0 (Cert.KernelIdeal.Gen.W0 m ρ c)
    (Proc.devRef .tc Cert.KernelIdeal.main_v18) = _
  dsimp only [Cert.KernelIdeal.Gen.hostOps0]; after_results_simp
  unfold Cert.ReferenceIdeal.RefValue.Href Cert.ReferenceIdeal.Read.val_main_v19 Cert.ReferenceIdeal.Read.val_main_v18
  funext i
  rw [addf_apply, addf_apply, mulf_apply, mulf_apply]
  refine congrArg₂ (· + ·) (congrArg₂ (· * ·) ?_ rfl) rfl
  rw [broadcastInDim_scalar_apply, Cert.ReferenceIdeal.Read.val_main_v17_apply,
    Cert.ReferenceIdeal.Read.val_main_v16_apply, Cert.ReferenceIdeal.Read.val_main_v15_apply,
    Cert.ReferenceIdeal.Read.val_main_v14_apply, Cert.ReferenceIdeal.Read.val_main_cst_1_apply]
  rw [addf_apply]
  refine congrArg₂ (· + ·) rfl ?_
  refine shapeCast_apply _ _ _ _ ?_
  show ((⟨1, ![1]⟩ : Shape).rowMajor (Cert.ReferenceIdeal.Read.idx_main_v16 (Cert.ReferenceIdeal.Read.idx_main_v17 i))).val
    = ((⟨0, ![]⟩ : Shape).rowMajor ix0).val
  rw [Shape.rowMajor_val_one]
  exact (Shape.rowMajorPi_zero _ _).symm

/-- At the ideal values the kernel's result array ends at the folded spelling of the two layers (its run, read back
    through the three regions) and the reference's at the centred spelling (its generated run); from arguments that
    agree and are finite these are one array. -/
theorem algebraic : Cert.algebraic_KernelIdeal_ReferenceIdeal := by
  intro m ρ m' ρ' hpre hagree
  refine ⟨fun c => Cert.Spec.out (Cert.ReferenceIdeal.RefValue.Href (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))
      (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · refine (θ_run Cert.KernelIdeal.defs _ _).mono (fun r h c => ⟨(h c).1.trans ?_, (h c).2⟩)
      (Cert.KernelIdeal.RunValue.run_main (F := Ideal) m ρ)
    obtain ⟨r0, r2, r3, r4, r5, r6, r7, r8, r9, r10⟩ := Cert.Finite.args_real _ _ _ _ _ _ _ _ _ _ _ (hpre c)
    rw [Cert.KernelIdeal.ValueChain.result_eq, H_eq]
    exact Cert.Spec.folded_out (Cert.ReferenceIdeal.RefValue.allReal_Href _ _ _ r0 r2) r3 r4 r5 r6 r7 r8 r9 r10
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9, e10⟩ := hagree c
    rw [Cert.ReferenceIdeal.Read.val_main_v79_eq, Cert.ReferenceIdeal.RefValue.out_eq, e0, e1, e2, e3, e4, e5, e6, e7,
      e8, e9, e10]

end Cert.Bridge

end
-- ==== Proof.lean ====
/-
  The certificate of a graph-isomorphism-network layer: neighbour rows gathered and summed onto their destination
  nodes, combined with (1 + ε₀) · x, then two dense maps each followed by batch normalisation over the 100000 nodes and
  a rectifier. The kernel runs the three dense / normalise / rectify stages as tiled regions over blocks of 5000
  rows, with the column statistics taken by host code between the regions and folded into a scale row and a shift row;
  the reference writes the same layers with the statistics applied entry by entry in centred form.

  The three frames are the generated ones (the reference's is its generated run with the result dropped). Reading the
  kernel at the ideal values changed none of its operations, so the preservation conjunct is trivial. The algebraic conjunct is Proof/Bridge.lean: the
  kernel's result read off its run through the three regions, the reference's read off its run one operation at a
  time, and the law  z·(γ·r) + (β − μ·(γ·r)) = ((z − μ)·r)·γ + β  for real operands between them, the operands real
  because the inputs are finite and a variance is non-negative.
-/
import proofs.«165414_j20942260536132_1_alg».proof.Defs
import proofs.«165414_j20942260536132_1_alg».proof.Proof.Gen.Kernel
import proofs.«165414_j20942260536132_1_alg».proof.Proof.Gen.Kernel.Skeleton
import proofs.«165414_j20942260536132_1_alg».proof.Proof.Gen.Kernel.Launch
import proofs.«165414_j20942260536132_1_alg».proof.Proof.Gen.Kernel.Points
import proofs.«165414_j20942260536132_1_alg».proof.Proof.Gen.Kernel.Frame
import proofs.«165414_j20942260536132_1_alg».proof.Proof.Gen.KernelIdeal
import proofs.«165414_j20942260536132_1_alg».proof.Proof.Gen.KernelIdeal.Skeleton
import proofs.«165414_j20942260536132_1_alg».proof.Proof.Gen.KernelIdeal.Launch
import proofs.«165414_j20942260536132_1_alg».proof.Proof.Gen.KernelIdeal.Points
import proofs.«165414_j20942260536132_1_alg».proof.Proof.Gen.KernelIdeal.Frame
import proofs.«165414_j20942260536132_1_alg».proof.Proof.Gen.ReferenceIdeal
import proofs.«165414_j20942260536132_1_alg».proof.Proof.Gen.Pre_finite_inputs
import proofs.«165414_j20942260536132_1_alg».proof.Proof.Gen.ReferenceIdeal.Run
import proofs.«165414_j20942260536132_1_alg».proof.Proof.Gen.ReferenceIdeal.Read
import proofs.«165414_j20942260536132_1_alg».proof.Proof.Bridge
import Idealize.ShloMosaic.Adequacy
import Idealize.ShloMosaic.Init

noncomputable section

namespace Cert.Proof

open Idealize.ShloMosaic Idealize.SL.Sem Cert.Kernel

/-- The word-level kernel runs and leaves its arguments unchanged. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem claim : Cert.Claim := ⟨Cert.Kernel.Gen.facts, Cert.KernelIdeal.Gen.facts, Cert.ReferenceIdeal.Gen.facts, Cert.Pre_finite_inputs.Gen.facts,
  frame_k, frame_ki, frame_ri, trivial, Cert.Bridge.algebraic⟩

end Cert.Proof

end
